-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v96_0)) (v1 : (c : Dev Cert.KernelIdeal.nD) → Buf (Elt Ideal) ((c.tc : Thread Cert.KernelIdeal.nD Cert.KernelIdeal.τ).loc Cert.KernelIdeal.main_v96_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96_0) = v0 c
          ∧ r.2.mem ((c.tc : Thread Cert.KernelIdeal.nD Cert.KernelIdeal.τ).loc Cert.KernelIdeal.main_v96_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S100000x32 : Shape := ⟨2, ![100000, 32]⟩
abbrev S256x32 : Shape := ⟨2, ![256, 32]⟩
abbrev S32 : Shape := ⟨1, ![32]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x32 : S_.BroadcastsInDim S100000x32 (![] : Fin 0 → Fin S100000x32.rank)
  reducesTo_S100000x32_S_d0_1 : S100000x32.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S64x32 .f32) (main_arg13 : FVec F S32 .f32) (main_arg14 : FVec F S64x32 .f32) (main_arg15 : FVec F S32 .f32) (main_arg16 : FVec F S32x1 .f32) (main_arg17 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg12
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_v63 main_v67

def fn_part2 {F : FTy → Type} [FloatOps F] (main_arg8 : FVec F S256x32 .f32) (main_arg9 : FVec F S32 .f32) (main_arg10 : FVec F S64x32 .f32) (main_arg11 : FVec F S32 .f32) (main_arg12 : FVec F S64x32 .f32) (main_arg13 : FVec F S32 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S256x32 .f32 := Host.absf main_arg8
  let main_cst_12 : FVec F S_ .f32 := constant S_ .f32 0x7F800000#32
  let main_v35 : FVec F S256x32 .f32 := broadcastInDim S256x32 ![] bcast_S_S256x32 main_cst_12
  let main_v36 : IVec S256x32 1 := cmpf .olt main_v34 main_v35
  let main_c_13 : IVec S_ 1 := constantI S_ 1 1#1
  let main_v37 : IVec S_ 1 := (fun x v => Host.reduce IntOp.andi x v reducesTo_S256x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S32 .f32) (main_arg6 : FVec F S256x32 .f32) (main_arg7 : FVec F S32 .f32) (main_arg8 : FVec F S256x32 .f32) (main_arg9 : FVec F S32 .f32) (main_arg10 : FVec F S64x32 .f32) (main_arg11 : FVec F S32 .f32) (main_arg12 : FVec F S64x32 .f32) (main_arg13 : FVec F S32 .f32) (main_arg14 : FVec F S64x32 .f32) (main_arg15 : FVec F S32 .f32) (main_arg16 : FVec F S32x1 .f32) (main_arg17 : FVec F S1 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x256 .f32) (main_arg1 : IVec S2x3200000 32) (main_arg2 : FVec F S3200000 .f32) (main_arg3 : FVec F S100000x32 .f32) (main_arg4 : FVec F S256x32 .f32) (main_arg5 : FVec F S32 .f32) (main_arg6 : FVec F S256x32 .f32) (main_arg7 : FVec F S32 .f32) (main_arg8 : FVec F S256x32 .f32) (main_arg9 : FVec F S32 .f32) (main_arg10 : FVec F S64x32 .f32) (main_arg11 : FVec F S32 .f32) (main_arg12 : FVec F S64x32 .f32) (main_arg13 : FVec F S32 .f32) (main_arg14 : FVec F S64x32 .f32) (main_arg15 : FVec F S32 .f32) (main_arg16 : FVec F S32x1 .f32) (main_arg17 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x32 .f32 := Host.absf main_arg3
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S256x32 .f32 := Host.absf main_arg4
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S100000x32 : Shape := ⟨2, ![100000, 32]⟩
abbrev S256x32 : Shape := ⟨2, ![256, 32]⟩
abbrev S32 : Shape := ⟨1, ![32]⟩
abbrev S64x32 : Shape := ⟨2, ![64, 32]⟩
abbrev S32x1 : Shape := ⟨2, ![32, 1]⟩
abbrev S1 : Shape := ⟨1, ![1]⟩
abbrev S1x3200000 : Shape := ⟨2, ![1, 3200000]⟩
abbrev S256x96 : Shape := ⟨2, ![256, 96]⟩
abbrev S100000x96 : Shape := ⟨2, ![100000, 96]⟩
abbrev S2000x256 : Shape := ⟨2, ![2000, 256]⟩
abbrev S2000x96 : Shape := ⟨2, ![2000, 96]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S1x1 : Shape := ⟨2, ![1, 1]⟩
abbrev S2000x32 : Shape := ⟨2, ![2000, 32]⟩
abbrev S2000x1 : Shape := ⟨2, ![2000, 1]⟩
abbrev S2000x64 : Shape := ⟨2, ![2000, 64]⟩

abbrev nBuf : Space → Nat
  | .hbm => 131
  | .vmem => 25
  | .smem => 0
  | _ => 0

abbrev hbmTy0_0 (i : Nat) : BufTy := match i % 128 with
  | 0 => ⟨S100000x256, .f32⟩
  | 1 => ⟨S2x3200000, .i32⟩
  | 2 => ⟨S3200000, .f32⟩
  | 3 => ⟨S100000x32, .f32⟩
  | 4 => ⟨S256x32, .f32⟩
  | 5 => ⟨S32, .f32⟩
  | 6 => ⟨S256x32, .f32⟩
  | 7 => ⟨S32, .f32⟩
  | 8 => ⟨S256x32, .f32⟩
  | 9 => ⟨S32, .f32⟩
  | 10 => ⟨S64x32, .f32⟩
  | 11 => ⟨S32, .f32⟩
  | 12 => ⟨S64x32, .f32⟩
  | 13 => ⟨S32, .f32⟩
  | 14 => ⟨S64x32, .f32⟩
  | 15 => ⟨S32, .f32⟩
  | 16 => ⟨S32x1, .f32⟩
  | 17 => ⟨S1, .f32⟩
  | 18 => ⟨S1x3200000, .i32⟩
  | 19 => ⟨S3200000, .i32⟩
  | 20 => ⟨S1x3200000, .i32⟩
  | 21 => ⟨S3200000, .i32⟩
  | 22 => ⟨S256x96, .f32⟩
  | 23 => ⟨S100000x96, .f32⟩
  | 24 => ⟨S100000x32, .f32⟩
  | 25 => ⟨S100000x32, .f32⟩
  | 26 => ⟨S100000x32, .f32⟩
  | 27 => ⟨S_, .f32⟩
  | 28 => ⟨S100000, .f32⟩
  | 29 => ⟨S3200000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S100000, .f32⟩
  | 56 => ⟨S3200000x1, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x32, .f32⟩
  | 66 => ⟨S3200000x32, .f32⟩
  | 67 => ⟨S3200000x32, .f32⟩
  | 68 => ⟨S_, .f32⟩
  | 69 => ⟨S100000x32, .f32⟩
  | 70 => ⟨S3200000x1, .i32⟩
  | 71 => ⟨S100000x32, .f32⟩
  | 72 => ⟨S100000x1, .f32⟩
  | 73 => ⟨S100000x32, .f32⟩
  | 74 => ⟨S100000x32, .f32⟩
  | 75 => ⟨S100000x32, .f32⟩
  | 76 => ⟨S1x32, .f32⟩
  | 77 => ⟨S100000x32, .f32⟩
  | 78 => ⟨S100000x32, .f32⟩
  | 79 => ⟨S3200000x1, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000x32, .f32⟩
  | 89 => ⟨S3200000x32, .f32⟩
  | 90 => ⟨S3200000x32, .f32⟩
  | 91 => ⟨S_, .f32⟩
  | 92 => ⟨S100000x32, .f32⟩
  | 93 => ⟨S3200000x1, .i32⟩
  | 94 => ⟨S100000x32, .f32⟩
  | 95 => ⟨S100000x1, .f32⟩
  | 96 => ⟨S100000x32, .f32⟩
  | 97 => ⟨S100000x32, .f32⟩
  | 98 => ⟨S100000x32, .f32⟩
  | 99 => ⟨S1x32, .f32⟩
  | 100 => ⟨S100000x32, .f32⟩
  | 101 => ⟨S100000x32, .f32⟩
  | 102 => ⟨S3200000x1, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000x32, .f32⟩
  | 112 => ⟨S3200000x32, .f32⟩
  | 113 => ⟨S3200000x32, .f32⟩
  | 114 => ⟨S_, .f32⟩
  | 115 => ⟨S100000x32, .f32⟩
  | 116 => ⟨S3200000x1, .i32⟩
  | 117 => ⟨S100000x32, .f32⟩
  | 118 => ⟨S100000x1, .f32⟩
  | 119 => ⟨S100000x32, .f32⟩
  | 120 => ⟨S100000x32, .f32⟩
  | 121 => ⟨S100000x32, .f32⟩
  | 122 => ⟨S1x32, .f32⟩
  | 123 => ⟨S100000x32, .f32⟩
  | 124 => ⟨S100000x32, .f32⟩
  | 125 => ⟨S1x32, .f32⟩
  | 126 => ⟨S1x32, .f32⟩
  | 127 => ⟨S1x32, .f32⟩
  | _ => ⟨S100000x256, .f32⟩

abbrev hbmTy0_1 (i : Nat) : BufTy := match i % 128 with
  | 0 => ⟨S1x1, .f32⟩
  | 1 => ⟨S100000x1, .f32⟩
  | 2 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x96, .f32⟩
  | .local _ .vmem, ⟨3, _⟩ => ⟨S2000x96, .f32⟩
  | .local _ .vmem, ⟨4, _⟩ => ⟨S2000x96, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S1x32, .f32⟩
  | .local _ .vmem, ⟨17, _⟩ => ⟨S64x32, .f32⟩
  | .local _ .vmem, ⟨18, _⟩ => ⟨S1x32, .f32⟩
  | .local _ .vmem, ⟨19, _⟩ => ⟨S32x1, .f32⟩
  | .local _ .vmem, ⟨20, _⟩ => ⟨S1x1, .f32⟩
  | .local _ .vmem, ⟨21, _⟩ => ⟨S2000x1, .f32⟩
  | .local _ .vmem, ⟨22, _⟩ => ⟨S2000x1, .f32⟩
  | .local _ .vmem, ⟨23, _⟩ => ⟨S2000x32, .f32⟩
  | .local _ .vmem, ⟨24, _⟩ => ⟨S2000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_4 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_7 : Ref sig .tc := ⟨.hbm, 80, rfl⟩
abbrev main_v53 : Ref sig .tc := ⟨.hbm, 81, rfl⟩
abbrev main_v54 : Ref sig .tc := ⟨.hbm, 82, rfl⟩
abbrev main_c_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_10 : Ref sig .tc := ⟨.hbm, 103, rfl⟩
abbrev main_v73 : Ref sig .tc := ⟨.hbm, 104, rfl⟩
abbrev main_v74 : Ref sig .tc := ⟨.hbm, 105, rfl⟩
abbrev main_c_11 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_12 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96_0 : Ref sig .tc := ⟨.hbm, 129, rfl⟩
abbrev main_v96_1 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg12_1 : Ref sig .tc := ⟨.vmem, 22, rfl⟩
abbrev cc1_stg13_0 : Ref sig .tc := ⟨.vmem, 23, rfl⟩
abbrev cc1_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem12_1 : DmaSem sig := 22
abbrev cc1_sem13_0 : DmaSem sig := 23
abbrev cc1_sem13_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2000x32 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S256x32_S256x32_S256x32_S256x96_d1 : Shape.Concatenates [S256x32, S256x32, S256x32] S256x96 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  shapeCasts_S256x96_S256x96 : S256x96.ShapeCasts S256x96
  inb_S2000x96_S2000x96_0_0 : ∀ a, (![0, 0] : Fin 2 → Nat) a + S2000x96.size a ≤ S2000x96.size a
  h_S2000x96 : 0 < S2000x96.numel
  slices_S100000x96_S100000x32_0_0 : S100000x96.Slices ![0, 0] S100000x32
  slices_S100000x96_S100000x32_0_32 : S100000x96.Slices ![0, 32] S100000x32
  slices_S100000x96_S100000x32_0_64 : S100000x96.Slices ![0, 64] S100000x32
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S32_S1x32 : S32.ShapeCasts S1x32
  shapeCasts_S1_S1x1 : S1.ShapeCasts S1x1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  concatenates_S2000x32_S2000x32_S2000x64_d1 : Shape.Concatenates [S2000x32, S2000x32] S2000x64 1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x256_S256x96_S2000x96_1_0_0_1_n_n_wf : DotDims.WF S2000x256 S256x96 S2000x96 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S100000x96.size a
  hwx0_2 : ∀ i : grid0.Coords, EltTy.bits .f32 = 32 ∨ (Rect.block (s := S100000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x32.size a ≤ S64x32.size a
  hwx1_8 : ∀ i : grid1.Coords, EltTy.bits .f32 = 32 ∨ (Rect.block (s := S64x32) S64x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x1.size a ≤ S32x1.size a
  hwx1_10 : ∀ i : grid1.Coords, EltTy.bits .f32 = 32 ∨ (Rect.block (s := S32x1) S32x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x1.size a ≤ S100000x1.size a
  hwx1_12 : ∀ i : grid1.Coords, EltTy.bits .f32 = 32 ∨ (Rect.block (s := S100000x1) S2000x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x32.size a ≤ S100000x32.size a
  hwx1_13 : ∀ i : grid1.Coords, EltTy.bits .f32 = 32 ∨ (Rect.block (s := S100000x32) S2000x32.size (cc1_transform_13 i) (hinb1_13 i)).WholeWords (EltTy.packing .f32)

variable [Facts₀]

def dot_S2000x256_S256x96_S2000x96_1_0_0_1_n_n : DotDims S2000x256 S256x96 S2000x96 where
  lhsContracting := [1]
  rhsContracting := [0]
  lhsNonContracting := [0]
  rhsNonContracting := [1]
  lhsBatch := []
  rhsBatch := []
  wf := dot_S2000x256_S256x96_S2000x96_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v91) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v92) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v93) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v94) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S32x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v95) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v96_0) S2000x1.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v96_1) S2000x32.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S100000x32 : Shape := ⟨2, ![100000, 32]⟩
abbrev S256x32 : Shape := ⟨2, ![256, 32]⟩
abbrev S32 : Shape := ⟨1, ![32]⟩
abbrev S64x32 : Shape := ⟨2, ![64, 32]⟩
abbrev S32x1 : Shape := ⟨2, ![32, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x64 : Shape := ⟨2, ![100000, 64]⟩
abbrev S1x1 : Shape := ⟨2, ![1, 1]⟩

abbrev nBuf : Space → Nat
  | .hbm => 227
  | .vmem => 0
  | .smem => 0
  | _ => 0

abbrev hbmTy0_0 (i : Nat) : BufTy := match i % 128 with
  | 0 => ⟨S100000x256, .f32⟩
  | 1 => ⟨S2x3200000, .i32⟩
  | 2 => ⟨S3200000, .f32⟩
  | 3 => ⟨S100000x32, .f32⟩
  | 4 => ⟨S256x32, .f32⟩
  | 5 => ⟨S32, .f32⟩
  | 6 => ⟨S256x32, .f32⟩
  | 7 => ⟨S32, .f32⟩
  | 8 => ⟨S256x32, .f32⟩
  | 9 => ⟨S32, .f32⟩
  | 10 => ⟨S64x32, .f32⟩
  | 11 => ⟨S32, .f32⟩
  | 12 => ⟨S64x32, .f32⟩
  | 13 => ⟨S32, .f32⟩
  | 14 => ⟨S64x32, .f32⟩
  | 15 => ⟨S32, .f32⟩
  | 16 => ⟨S32x1, .f32⟩
  | 17 => ⟨S1, .f32⟩
  | 18 => ⟨S1x3200000, .i32⟩
  | 19 => ⟨S3200000, .i32⟩
  | 20 => ⟨S1x3200000, .i32⟩
  | 21 => ⟨S3200000, .i32⟩
  | 22 => ⟨S100000x32, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S3200000, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000, .f32⟩
  | 50 => ⟨S3200000, .f32⟩
  | 51 => ⟨S3200000x1, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x32, .f32⟩
  | 61 => ⟨S3200000x32, .f32⟩
  | 62 => ⟨S3200000x32, .f32⟩
  | 63 => ⟨S_, .f32⟩
  | 64 => ⟨S100000x32, .f32⟩
  | 65 => ⟨S3200000x1, .i32⟩
  | 66 => ⟨S100000x32, .f32⟩
  | 67 => ⟨S100000, .f32⟩
  | 68 => ⟨S100000x1, .f32⟩
  | 69 => ⟨S100000x32, .f32⟩
  | 70 => ⟨S100000x32, .f32⟩
  | 71 => ⟨S100000x32, .f32⟩
  | 72 => ⟨S1x32, .f32⟩
  | 73 => ⟨S100000x32, .f32⟩
  | 74 => ⟨S100000x32, .f32⟩
  | 75 => ⟨S100000x64, .f32⟩
  | 76 => ⟨S100000x32, .f32⟩
  | 77 => ⟨S1x32, .f32⟩
  | 78 => ⟨S100000x32, .f32⟩
  | 79 => ⟨S100000x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x32, .f32⟩
  | 89 => ⟨S_, .f32⟩
  | 90 => ⟨S100000, .f32⟩
  | 91 => ⟨S3200000x1, .i32⟩
  | 92 => ⟨S100000, .f32⟩
  | 93 => ⟨S_, .f32⟩
  | 94 => ⟨S100000, .f32⟩
  | 95 => ⟨S100000, .f32⟩
  | 96 => ⟨S100000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000, .f32⟩
  | 106 => ⟨S3200000, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000, .f32⟩
  | 116 => ⟨S3200000, .f32⟩
  | 117 => ⟨S3200000x1, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000x32, .f32⟩
  | 127 => ⟨S3200000x32, .f32⟩
  | _ => ⟨S100000x256, .f32⟩

abbrev hbmTy0_1 (i : Nat) : BufTy := match i % 128 with
  | 0 => ⟨S3200000x32, .f32⟩
  | 1 => ⟨S_, .f32⟩
  | 2 => ⟨S100000x32, .f32⟩
  | 3 => ⟨S3200000x1, .i32⟩
  | 4 => ⟨S100000x32, .f32⟩
  | 5 => ⟨S100000, .f32⟩
  | 6 => ⟨S100000x1, .f32⟩
  | 7 => ⟨S100000x32, .f32⟩
  | 8 => ⟨S100000x32, .f32⟩
  | 9 => ⟨S100000x32, .f32⟩
  | 10 => ⟨S1x32, .f32⟩
  | 11 => ⟨S100000x32, .f32⟩
  | 12 => ⟨S100000x32, .f32⟩
  | 13 => ⟨S100000x64, .f32⟩
  | 14 => ⟨S100000x32, .f32⟩
  | 15 => ⟨S1x32, .f32⟩
  | 16 => ⟨S100000x32, .f32⟩
  | 17 => ⟨S100000x32, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S_, .f32⟩
  | 24 => ⟨S100000x32, .f32⟩
  | 25 => ⟨S100000x32, .f32⟩
  | 26 => ⟨S100000x32, .f32⟩
  | 27 => ⟨S_, .f32⟩
  | 28 => ⟨S100000, .f32⟩
  | 29 => ⟨S3200000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S3200000x1, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x32, .f32⟩
  | 65 => ⟨S3200000x32, .f32⟩
  | 66 => ⟨S3200000x32, .f32⟩
  | 67 => ⟨S_, .f32⟩
  | 68 => ⟨S100000x32, .f32⟩
  | 69 => ⟨S3200000x1, .i32⟩
  | 70 => ⟨S100000x32, .f32⟩
  | 71 => ⟨S100000, .f32⟩
  | 72 => ⟨S100000x1, .f32⟩
  | 73 => ⟨S100000x32, .f32⟩
  | 74 => ⟨S100000x32, .f32⟩
  | 75 => ⟨S100000x32, .f32⟩
  | 76 => ⟨S1x32, .f32⟩
  | 77 => ⟨S100000x32, .f32⟩
  | 78 => ⟨S100000x32, .f32⟩
  | 79 => ⟨S100000x32, .f32⟩
  | 80 => ⟨S100000x64, .f32⟩
  | 81 => ⟨S100000x32, .f32⟩
  | 82 => ⟨S1x32, .f32⟩
  | 83 => ⟨S100000x32, .f32⟩
  | 84 => ⟨S100000x32, .f32⟩
  | 85 => ⟨S100000x32, .f32⟩
  | 86 => ⟨S100000x32, .f32⟩
  | 87 => ⟨S_, .f32⟩
  | 88 => ⟨S100000x32, .f32⟩
  | 89 => ⟨S100000x32, .f32⟩
  | 90 => ⟨S100000x32, .f32⟩
  | 91 => ⟨S100000x32, .f32⟩
  | 92 => ⟨S_, .f32⟩
  | 93 => ⟨S100000x32, .f32⟩
  | 94 => ⟨S100000x32, .f32⟩
  | 95 => ⟨S100000x1, .f32⟩
  | 96 => ⟨S1x1, .f32⟩
  | 97 => ⟨S100000x1, .f32⟩
  | 98 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_13 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_15 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_18 : Ref sig .tc := ⟨.hbm, 148, rfl⟩
abbrev main_v110 : Ref sig .tc := ⟨.hbm, 149, rfl⟩
abbrev main_v111 : Ref sig .tc := ⟨.hbm, 150, rfl⟩
abbrev main_cst_19 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_20 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_21 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_22 : Ref sig .tc := ⟨.hbm, 163, rfl⟩
abbrev main_v121 : Ref sig .tc := ⟨.hbm, 164, rfl⟩
abbrev main_v122 : Ref sig .tc := ⟨.hbm, 165, rfl⟩
abbrev main_c_23 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_24 : Ref sig .tc := ⟨.hbm, 173, rfl⟩
abbrev main_v129 : Ref sig .tc := ⟨.hbm, 174, rfl⟩
abbrev main_v130 : Ref sig .tc := ⟨.hbm, 175, rfl⟩
abbrev main_c_25 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_c_26 : Ref sig .tc := ⟨.hbm, 184, rfl⟩
abbrev main_v138 : Ref sig .tc := ⟨.hbm, 185, rfl⟩
abbrev main_v139 : Ref sig .tc := ⟨.hbm, 186, rfl⟩
abbrev main_c_27 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_28 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_29 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_call0_cst : Ref sig .tc := ⟨.hbm, 220, rfl⟩
abbrev main_call0_v0 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x256_S256x32_S100000x32_1_0_0_1_n_n_wf : DotDims.WF S100000x256 S256x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Kernel.Body0.lean ====
/-
  The first pipelined call (the row-tiled matrix product x · [W_z | W_r | W_h]) at the contents `V` its arrays are found at.

  The grid has 50 points; point `t` sees rows 2000·t … 2000·t + 1999 of `x`, the whole 256 × 96 weight matrix (the same block at
  every point) and writes the matching 2000 × 96 block of the product.  The body loads its two input blocks whole, forms the
  product and stores it through the whole output block, so after the body the output's buffer is that one store's value and the
  inputs' buffers are as they were.  From this: the proof data of the pipeline (what each buffer holds after the body at each
  point) and the obligation that the body, called with its blocks, runs without fault and leaves exactly that.
-/
import proofs.«114561_j77266461655170_1_alg».proof.Proof.Gen.Kernel.Launch
import proofs.«114561_j77266461655170_1_alg».proof.Proof.Gen.Kernel.Skeleton
import proofs.«114561_j77266461655170_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its buffer at every point: fetched there, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight matrix is in its buffer at every point: fetched once, its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses are the whole blocks. -/
abbrev r0_0 : Rect S2000x256 := Rect.unit (s := S2000x256) ![0, 0] S2000x256.size inb_S2000x256_S2000x256_0_0
abbrev r0_1 : Rect S256x96 := Rect.unit (s := S256x96) ![0, 0] S256x96.size inb_S256x96_S256x96_0_0
abbrev r0_2 : Rect S2000x96 := Rect.unit (s := S2000x96) ![0, 0] S2000x96.size inb_S2000x96_S2000x96_0_0

/-- The output block after the body: its one store, of the product of the two loaded blocks. -/
def out0_2 (x0 : Vec F S2000x256 .f32) (x1 : Vec F S256x96 .f32) : Vec F S2000x96 .f32 :=
  View.canon [⟨r0_2, k0_pay1 (View.ld x0 r0_0) (View.ld x1 r0_1)⟩]

/-- That store fills the block. -/
theorem cover0_2 (p0 : Vec F S2000x96 .f32) (y : S2000x96.Idx) :
    ∃ pc ∈ ([⟨r0_2, p0⟩] : List (View.Piece (Elt F) S2000x96 .f32)), y ∈ pc.1.set :=
  View.cover_of_tiled [⟨r0_2, p0⟩] S2000x96.size (by rfl) y

set_option maxHeartbeats 1000000 in
/-- The body on whole buffers, the inputs' holding `x0`, `x1` and the output's anything, runs to the continuation with the inputs'
    as they were and the output's at `out0_2 x0 x1`. -/
theorem sound_kernel0 (c : Dev nD) (E : Set ℕ) (i : grid0.Coords) (arg1 : Memref sig .tc .vmem S2000x256 .f32) (harg1 : arg1.IsWhole)
    (arg2 : Memref sig .tc .vmem S256x96 .f32) (harg2 : arg2.IsWhole) (arg3 : Memref sig .tc .vmem S2000x96 .f32) (harg3 : arg3.IsWhole)
    (x0 : Vec F S2000x256 .f32) (x1 : Vec F S256x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call on core `c`: the arrays as found; after the body at point `t` each input's buffer at its block and
    the output's at the product of the two blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.Kernel.Body1.lean ====
/-
  The second pipelined call (the gated recurrent cell and its scalar head, 2000 nodes at a time) at the contents `V` its arrays
  are found at.

  The grid has 50 points; point `t` sees rows 2000·t … 2000·t + 1999 of the three graph-convolution outputs and of the previous
  hidden state, the six gate matrices and biases and the head's weight and bias whole (the same block at every point), and
  writes rows 2000·t … of the read-out (one column) and of the new hidden state (32 columns).  The body loads its twelve input
  blocks whole and stores each output block whole, once; so after the body each output's buffer is its one store's value and
  the inputs' buffers are as they were.  From this: the pipeline's proof data and its body obligation.
-/
import proofs.«114561_j77266461655170_1_alg».proof.Proof.Gen.Kernel.Launch
import proofs.«114561_j77266461655170_1_alg».proof.Proof.Gen.Kernel.Skeleton
import proofs.«114561_j77266461655170_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input block is in its buffer at every point: fetched there (a row block) or fetched once with a block index that never
    moves (a weight or a bias), and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- The body's accesses are the whole blocks, one rectangle per block shape. -/
abbrev rRows : Rect S2000x32 := Rect.unit (s := S2000x32) ![0, 0] S2000x32.size inb_S2000x32_S2000x32_0_0
abbrev rMat : Rect S64x32 := Rect.unit (s := S64x32) ![0, 0] S64x32.size inb_S64x32_S64x32_0_0
abbrev rBias : Rect S1x32 := Rect.unit (s := S1x32) ![0, 0] S1x32.size inb_S1x32_S1x32_0_0
abbrev rHeadW : Rect S32x1 := Rect.unit (s := S32x1) ![0, 0] S32x1.size inb_S32x1_S32x1_0_0
abbrev rHeadB : Rect S1x1 := Rect.unit (s := S1x1) ![0, 0] S1x1.size inb_S1x1_S1x1_0_0
abbrev rCol : Rect S2000x1 := Rect.unit (s := S2000x1) ![0, 0] S2000x1.size inb_S2000x1_S2000x1_0_0

/-- The read-out block after the body: its one store, the head applied to the cell's state (the cell's three intermediate
    values are the body's first part's results, of the loaded blocks). -/
def out1_12 (x0 x1 x2 x3 : Vec F S2000x32 .f32) (x4 : Vec F S64x32 .f32) (x5 : Vec F S1x32 .f32) (x6 : Vec F S64x32 .f32) (x7 : Vec F S1x32 .f32)
    (x8 : Vec F S64x32 .f32) (x9 : Vec F S1x32 .f32) (x10 : Vec F S32x1 .f32) (x11 : Vec F S1x1 .f32) : Vec F S2000x1 .f32 :=
  View.canon [⟨rCol, k1_pay2 (View.ld x3 rRows) (k1_pay3 (View.ld x0 rRows) (View.ld x3 rRows) (View.ld x4 rMat) (View.ld x5 rBias))
    (k1_pay4 (View.ld x1 rRows) (View.ld x2 rRows) (View.ld x3 rRows) (View.ld x6 rMat) (View.ld x7 rBias) (View.ld x8 rMat))
    (k1_pay5 (View.ld x9 rBias)) (View.ld x10 rHeadW) (View.ld x11 rHeadB)⟩]

/-- The hidden-state block after the body: its one store, the cell's new state. -/
def out1_13 (x0 x1 x2 x3 : Vec F S2000x32 .f32) (x4 : Vec F S64x32 .f32) (x5 : Vec F S1x32 .f32) (x6 : Vec F S64x32 .f32) (x7 : Vec F S1x32 .f32)
    (x8 : Vec F S64x32 .f32) (x9 : Vec F S1x32 .f32) : Vec F S2000x32 .f32 :=
  View.canon [⟨rRows, k1_pay1 (View.ld x3 rRows) (k1_pay3 (View.ld x0 rRows) (View.ld x3 rRows) (View.ld x4 rMat) (View.ld x5 rBias))
    (k1_pay4 (View.ld x1 rRows) (View.ld x2 rRows) (View.ld x3 rRows) (View.ld x6 rMat) (View.ld x7 rBias) (View.ld x8 rMat))
    (k1_pay5 (View.ld x9 rBias))⟩]

/-- Each store fills its block. -/
theorem cover1_12 (p0 : Vec F S2000x1 .f32) (y : S2000x1.Idx) :
    ∃ pc ∈ ([⟨rCol, p0⟩] : List (View.Piece (Elt F) S2000x1 .f32)), y ∈ pc.1.set :=
  View.cover_of_tiled [⟨rCol, p0⟩] S2000x1.size (by rfl) y
theorem cover1_13 (p0 : Vec F S2000x32 .f32) (y : S2000x32.Idx) :
    ∃ pc ∈ ([⟨rRows, p0⟩] : List (View.Piece (Elt F) S2000x32 .f32)), y ∈ pc.1.set :=
  View.cover_of_tiled [⟨rRows, p0⟩] S2000x32.size (by rfl) y

set_option maxHeartbeats 4000000 in
/-- The body on whole buffers, the inputs' holding `x0 … x11` and the outputs' anything, runs to the continuation with the
    inputs' as they were and the outputs' at `out1_12`, `out1_13` of them. -/
theorem sound_kernel1 (c : Dev nD) (E : Set ℕ) (i : grid1.Coords)
    (arg1 : Memref sig .tc .vmem S2000x32 .f32) (harg1 : arg1.IsWhole) (arg2 : Memref sig .tc .vmem S2000x32 .f32) (harg2 : arg2.IsWhole)
    (arg3 : Memref sig .tc .vmem S2000x32 .f32) (harg3 : arg3.IsWhole) (arg4 : Memref sig .tc .vmem S2000x32 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S1x32 .f32) (harg8 : arg8.IsWhole)
    (arg9 : Memref sig .tc .vmem S64x32 .f32) (harg9 : arg9.IsWhole) (arg10 : Memref sig .tc .vmem S1x32 .f32) (harg10 : arg10.IsWhole)
    (arg11 : Memref sig .tc .vmem S32x1 .f32) (harg11 : arg11.IsWhole) (arg12 : Memref sig .tc .vmem S1x1 .f32) (harg12 : arg12.IsWhole)
    (arg13 : Memref sig .tc .vmem S2000x1 .f32) (harg13 : arg13.IsWhole) (arg14 : Memref sig .tc .vmem S2000x32 .f32) (harg14 : arg14.IsWhole)
    (x0 x1 x2 x3 : Vec F S2000x32 .f32) (x4 : Vec F S64x32 .f32) (x5 : Vec F S1x32 .f32) (x6 : Vec F S64x32 .f32) (x7 : Vec F S1x32 .f32)
    (x8 : Vec F S64x32 .f32) (x9 : Vec F S1x32 .f32) (x10 : Vec F S32x1 .f32) (x11 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (out1_12 x0 x1 x2 x3 x4 x5 x6 x7 x8 x9 x10 x11)
            ∗ owns (c : Thread nD τ) arg14 fullShare (out1_13 x0 x1 x2 x3 x4 x5 x6 x7 x8 x9)) -∗ K ⟨⟩))
      ⊢ wp frame (wpE (defs₀ (F := F)) Variants.none c none) E
          (cc1__gru_head_kernel i arg1 harg1 arg2 harg2 arg3 harg3 arg4 harg4 arg5 harg5 arg6 harg6 arg7 harg7 arg8 harg8 arg9 harg9
            arg10 harg10 arg11 harg11 arg12 harg12 arg13 harg13 arg14 harg14) K := by
  simp only [cc1__gru_head_kernel_eq_skeleton]; unfold cc1__gru_head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover1_12 _)
  iexists _; isplitr
  swap; · iexact H13
  ipureintro
  try dsimp only
  exact View.read_writes_eq_canon _ _ _ (cover1_13 _)

/-- The proof data of the call on core `c`: the arrays as found; after the body at point `t` each input's buffer at its block,
    the read-out's at `out1_12` and the hidden state's at `out1_13` of the input blocks; the scoped rest and the generator
    register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t)
    | ⟨13, _⟩ => out1_13 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = out1_13 (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d
theorem before1_9 (c : Dev nD) (t : Fin cfg1.N) (d) : (dat1 V c).before 9 t d = iblk1 V c 9 t := before1_9_of V (dat1 V c) (A_eq1 V c 9) (after1_9 V c) t d
theorem before1_10 (c : Dev nD) (t : Fin cfg1.N) (d) : (dat1 V c).before 10 t d = iblk1 V c 10 t := before1_10_of V (dat1 V c) (A_eq1 V c 10) (after1_10 V c) t d
theorem before1_11 (c : Dev nD) (t : Fin cfg1.N) (d) : (dat1 V c).before 11 t d = iblk1 V c 11 t := before1_11_of V (dat1 V c) (A_eq1 V c 11) (after1_11 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: the inputs' buffers hold their blocks, so `sound_kernel1` applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.Kernel.Run.lean ====
/-
  The whole program from launch to return: five host operations (the two rows of the edge list taken apart, the three weight
  matrices joined side by side), the first pipelined call (the matrix product), one hundred and five host operations (the three
  column blocks of the product, the degree normalisation, the three weighted neighbourhood sums with their self terms and biases,
  the four biases reshaped to rows), and the second pipelined call (the recurrent cell and head).

  The buffer contents at each of the five boundaries are a fold from the launch memory: a stretch of host operations applies
  them in order; a pipelined call leaves its input arrays as it found them and each output array at what its write-backs leave.
  No host operation and no call writes an argument, so the fold read at an argument's buffer walks back to the launch memory.
  Every weakly fair execution terminates without fault, and at the end every unscoped buffer holds the last boundary's contents:
  from this both the frame claim (the arguments end as launched) and the two results' values are read.
-/
import proofs.«114561_j77266461655170_1_alg».proof.Proof.Kernel.Body0
import proofs.«114561_j77266461655170_1_alg».proof.Proof.Kernel.Body1

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first five host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the hundred and five host operations between the calls (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- No operation of a stretch writes the buffer: each operation writes its one result buffer, which is another reference. -/
local macro "not_written" : tactic => `(tactic| (
  refine List.forall_iff_forall_mem.mp ?_
  simp only [hostOps0, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

theorem W1_main_arg0 (c : Dev nD) : W1 m ρ c (Proc.devRef .tc main_arg0) = m ((c : Thread nD τ).loc main_arg0) :=
  (StableHlo.after_of_forall_not_mem (b := Proc.devRef .tc main_arg0) _ _ (by not_written)).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (by not_written)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (by not_written)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (by not_written)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (by not_written)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (by not_written)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (by not_written)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (by not_written)).trans (W2_main_arg3 m ρ c)
theorem W4_main_arg3 (c : Dev nD) : W4 m ρ c (Proc.devRef .tc main_arg3) = m ((c : Thread nD τ).loc main_arg3) :=
  ((W4_arr m ρ c 3).trans (((dat1 (V3 m ρ) c).arrAt_in 3 rfl _).trans (A_eq1 (V3 m ρ) c 3))).trans (W3_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (by not_written)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (by not_written)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (by not_written)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (by not_written)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (by not_written)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (by not_written)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (by not_written)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (by not_written)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (by not_written)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_forall_not_mem (b := Proc.devRef .tc main_arg8) _ _ (by not_written)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W1_main_arg9 (c : Dev nD) : W1 m ρ c (Proc.devRef .tc main_arg9) = m ((c : Thread nD τ).loc main_arg9) :=
  (StableHlo.after_of_forall_not_mem (b := Proc.devRef .tc main_arg9) _ _ (by not_written)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_forall_not_mem (b := Proc.devRef .tc main_arg9) _ _ (by not_written)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W1_main_arg10 (c : Dev nD) : W1 m ρ c (Proc.devRef .tc main_arg10) = m ((c : Thread nD τ).loc main_arg10) :=
  (StableHlo.after_of_forall_not_mem (b := Proc.devRef .tc main_arg10) _ _ (by not_written)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_forall_not_mem (b := Proc.devRef .tc main_arg10) _ _ (by not_written)).trans (W2_main_arg10 m ρ c)
theorem W4_main_arg10 (c : Dev nD) : W4 m ρ c (Proc.devRef .tc main_arg10) = m ((c : Thread nD τ).loc main_arg10) :=
  ((W4_arr m ρ c 4).trans (((dat1 (V3 m ρ) c).arrAt_in 4 rfl _).trans (A_eq1 (V3 m ρ) c 4))).trans (W3_main_arg10 m ρ c)
theorem W1_main_arg11 (c : Dev nD) : W1 m ρ c (Proc.devRef .tc main_arg11) = m ((c : Thread nD τ).loc main_arg11) :=
  (StableHlo.after_of_forall_not_mem (b := Proc.devRef .tc main_arg11) _ _ (by not_written)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_forall_not_mem (b := Proc.devRef .tc main_arg11) _ _ (by not_written)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W1_main_arg12 (c : Dev nD) : W1 m ρ c (Proc.devRef .tc main_arg12) = m ((c : Thread nD τ).loc main_arg12) :=
  (StableHlo.after_of_forall_not_mem (b := Proc.devRef .tc main_arg12) _ _ (by not_written)).trans rfl
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (StableHlo.after_of_forall_not_mem (b := Proc.devRef .tc main_arg12) _ _ (by not_written)).trans (W2_main_arg12 m ρ c)
theorem W4_main_arg12 (c : Dev nD) : W4 m ρ c (Proc.devRef .tc main_arg12) = m ((c : Thread nD τ).loc main_arg12) :=
  ((W4_arr m ρ c 6).trans (((dat1 (V3 m ρ) c).arrAt_in 6 rfl _).trans (A_eq1 (V3 m ρ) c 6))).trans (W3_main_arg12 m ρ c)
theorem W1_main_arg13 (c : Dev nD) : W1 m ρ c (Proc.devRef .tc main_arg13) = m ((c : Thread nD τ).loc main_arg13) :=
  (StableHlo.after_of_forall_not_mem (b := Proc.devRef .tc main_arg13) _ _ (by not_written)).trans rfl
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) :=
  (StableHlo.after_of_forall_not_mem (b := Proc.devRef .tc main_arg13) _ _ (by not_written)).trans (W2_main_arg13 m ρ c)
theorem W4_main_arg13 (c : Dev nD) : W4 m ρ c (Proc.devRef .tc main_arg13) = m ((c : Thread nD τ).loc main_arg13) :=
  (W4_of_ne m ρ c main_arg13 (by decide)).trans (W3_main_arg13 m ρ c)
theorem W1_main_arg14 (c : Dev nD) : W1 m ρ c (Proc.devRef .tc main_arg14) = m ((c : Thread nD τ).loc main_arg14) :=
  (StableHlo.after_of_forall_not_mem (b := Proc.devRef .tc main_arg14) _ _ (by not_written)).trans rfl
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) :=
  (StableHlo.after_of_forall_not_mem (b := Proc.devRef .tc main_arg14) _ _ (by not_written)).trans (W2_main_arg14 m ρ c)
theorem W4_main_arg14 (c : Dev nD) : W4 m ρ c (Proc.devRef .tc main_arg14) = m ((c : Thread nD τ).loc main_arg14) :=
  ((W4_arr m ρ c 8).trans (((dat1 (V3 m ρ) c).arrAt_in 8 rfl _).trans (A_eq1 (V3 m ρ) c 8))).trans (W3_main_arg14 m ρ c)
theorem W1_main_arg15 (c : Dev nD) : W1 m ρ c (Proc.devRef .tc main_arg15) = m ((c : Thread nD τ).loc main_arg15) :=
  (StableHlo.after_of_forall_not_mem (b := Proc.devRef .tc main_arg15) _ _ (by not_written)).trans rfl
theorem W2_main_arg15 (c : Dev nD) : W2 m ρ c (Proc.devRef .tc main_arg15) = m ((c : Thread nD τ).loc main_arg15) :=
  (W2_of_ne m ρ c main_arg15 (by decide)).trans (W1_main_arg15 m ρ c)
theorem W3_main_arg15 (c : Dev nD) : W3 m ρ c (Proc.devRef .tc main_arg15) = m ((c : Thread nD τ).loc main_arg15) :=
  (StableHlo.after_of_forall_not_mem (b := Proc.devRef .tc main_arg15) _ _ (by not_written)).trans (W2_main_arg15 m ρ c)
theorem W4_main_arg15 (c : Dev nD) : W4 m ρ c (Proc.devRef .tc main_arg15) = m ((c : Thread nD τ).loc main_arg15) :=
  (W4_of_ne m ρ c main_arg15 (by decide)).trans (W3_main_arg15 m ρ c)
theorem W1_main_arg16 (c : Dev nD) : W1 m ρ c (Proc.devRef .tc main_arg16) = m ((c : Thread nD τ).loc main_arg16) :=
  (StableHlo.after_of_forall_not_mem (b := Proc.devRef .tc main_arg16) _ _ (by not_written)).trans rfl
theorem W2_main_arg16 (c : Dev nD) : W2 m ρ c (Proc.devRef .tc main_arg16) = m ((c : Thread nD τ).loc main_arg16) :=
  (W2_of_ne m ρ c main_arg16 (by decide)).trans (W1_main_arg16 m ρ c)
theorem W3_main_arg16 (c : Dev nD) : W3 m ρ c (Proc.devRef .tc main_arg16) = m ((c : Thread nD τ).loc main_arg16) :=
  (StableHlo.after_of_forall_not_mem (b := Proc.devRef .tc main_arg16) _ _ (by not_written)).trans (W2_main_arg16 m ρ c)
theorem W4_main_arg16 (c : Dev nD) : W4 m ρ c (Proc.devRef .tc main_arg16) = m ((c : Thread nD τ).loc main_arg16) :=
  ((W4_arr m ρ c 10).trans (((dat1 (V3 m ρ) c).arrAt_in 10 rfl _).trans (A_eq1 (V3 m ρ) c 10))).trans (W3_main_arg16 m ρ c)
theorem W1_main_arg17 (c : Dev nD) : W1 m ρ c (Proc.devRef .tc main_arg17) = m ((c : Thread nD τ).loc main_arg17) :=
  (StableHlo.after_of_forall_not_mem (b := Proc.devRef .tc main_arg17) _ _ (by not_written)).trans rfl
theorem W2_main_arg17 (c : Dev nD) : W2 m ρ c (Proc.devRef .tc main_arg17) = m ((c : Thread nD τ).loc main_arg17) :=
  (W2_of_ne m ρ c main_arg17 (by decide)).trans (W1_main_arg17 m ρ c)
theorem W3_main_arg17 (c : Dev nD) : W3 m ρ c (Proc.devRef .tc main_arg17) = m ((c : Thread nD τ).loc main_arg17) :=
  (StableHlo.after_of_forall_not_mem (b := Proc.devRef .tc main_arg17) _ _ (by not_written)).trans (W2_main_arg17 m ρ c)
theorem W4_main_arg17 (c : Dev nD) : W4 m ρ c (Proc.devRef .tc main_arg17) = m ((c : Thread nD τ).loc main_arg17) :=
  (W4_of_ne m ρ c main_arg17 (by decide)).trans (W3_main_arg17 m ρ c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, and every final state holds
    the last boundary's contents in every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- Read at one unscoped buffer of the TensorCore. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  (θ_run defs _ _).mono (fun _ h c b hb => h c _ (mem_uc b hb)) (run_all m ρ)

end Cert.Kernel.Body

end
-- ==== Proof.KernelIdeal.Body0.lean ====
/-
  The first pipelined call (the row-tiled matrix product x · [W_z | W_r | W_h]) at the contents `V` its arrays are found at.

  The grid has 50 points; point `t` sees rows 2000·t … 2000·t + 1999 of `x`, the whole 256 × 96 weight matrix (the same block at
  every point) and writes the matching 2000 × 96 block of the product.  The body loads its two input blocks whole, forms the
  product and stores it through the whole output block, so after the body the output's buffer is that one store's value and the
  inputs' buffers are as they were.  From this: the proof data of the pipeline (what each buffer holds after the body at each
  point) and the obligation that the body, called with its blocks, runs without fault and leaves exactly that.
-/
import proofs.«114561_j77266461655170_1_alg».proof.Proof.Gen.KernelIdeal.Launch
import proofs.«114561_j77266461655170_1_alg».proof.Proof.Gen.KernelIdeal.Skeleton
import proofs.«114561_j77266461655170_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its buffer at every point: fetched there, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight matrix is in its buffer at every point: fetched once, its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses are the whole blocks. -/
abbrev r0_0 : Rect S2000x256 := Rect.unit (s := S2000x256) ![0, 0] S2000x256.size inb_S2000x256_S2000x256_0_0
abbrev r0_1 : Rect S256x96 := Rect.unit (s := S256x96) ![0, 0] S256x96.size inb_S256x96_S256x96_0_0
abbrev r0_2 : Rect S2000x96 := Rect.unit (s := S2000x96) ![0, 0] S2000x96.size inb_S2000x96_S2000x96_0_0

/-- The output block after the body: its one store, of the product of the two loaded blocks. -/
def out0_2 (x0 : Vec F S2000x256 .f32) (x1 : Vec F S256x96 .f32) : Vec F S2000x96 .f32 :=
  View.canon [⟨r0_2, k0_pay1 (View.ld x0 r0_0) (View.ld x1 r0_1)⟩]

/-- That store fills the block. -/
theorem cover0_2 (p0 : Vec F S2000x96 .f32) (y : S2000x96.Idx) :
    ∃ pc ∈ ([⟨r0_2, p0⟩] : List (View.Piece (Elt F) S2000x96 .f32)), y ∈ pc.1.set :=
  View.cover_of_tiled [⟨r0_2, p0⟩] S2000x96.size (by rfl) y

set_option maxHeartbeats 1000000 in
/-- The body on whole buffers, the inputs' holding `x0`, `x1` and the output's anything, runs to the continuation with the inputs'
    as they were and the output's at `out0_2 x0 x1`. -/
theorem sound_kernel0 (c : Dev nD) (E : Set ℕ) (i : grid0.Coords) (arg1 : Memref sig .tc .vmem S2000x256 .f32) (harg1 : arg1.IsWhole)
    (arg2 : Memref sig .tc .vmem S256x96 .f32) (harg2 : arg2.IsWhole) (arg3 : Memref sig .tc .vmem S2000x96 .f32) (harg3 : arg3.IsWhole)
    (x0 : Vec F S2000x256 .f32) (x1 : Vec F S256x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call on core `c`: the arrays as found; after the body at point `t` each input's buffer at its block and
    the output's at the product of the two blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KernelIdeal.Body1.lean ====
/-
  The second pipelined call (the gated recurrent cell and its scalar head, 2000 nodes at a time) at the contents `V` its arrays
  are found at.

  The grid has 50 points; point `t` sees rows 2000·t … 2000·t + 1999 of the three graph-convolution outputs and of the previous
  hidden state, the six gate matrices and biases and the head's weight and bias whole (the same block at every point), and
  writes rows 2000·t … of the read-out (one column) and of the new hidden state (32 columns).  The body loads its twelve input
  blocks whole and stores each output block whole, once; so after the body each output's buffer is its one store's value and
  the inputs' buffers are as they were.  From this: the pipeline's proof data and its body obligation.
-/
import proofs.«114561_j77266461655170_1_alg».proof.Proof.Gen.KernelIdeal.Launch
import proofs.«114561_j77266461655170_1_alg».proof.Proof.Gen.KernelIdeal.Skeleton
import proofs.«114561_j77266461655170_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input block is in its buffer at every point: fetched there (a row block) or fetched once with a block index that never
    moves (a weight or a bias), and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- The body's accesses are the whole blocks, one rectangle per block shape. -/
abbrev rRows : Rect S2000x32 := Rect.unit (s := S2000x32) ![0, 0] S2000x32.size inb_S2000x32_S2000x32_0_0
abbrev rMat : Rect S64x32 := Rect.unit (s := S64x32) ![0, 0] S64x32.size inb_S64x32_S64x32_0_0
abbrev rBias : Rect S1x32 := Rect.unit (s := S1x32) ![0, 0] S1x32.size inb_S1x32_S1x32_0_0
abbrev rHeadW : Rect S32x1 := Rect.unit (s := S32x1) ![0, 0] S32x1.size inb_S32x1_S32x1_0_0
abbrev rHeadB : Rect S1x1 := Rect.unit (s := S1x1) ![0, 0] S1x1.size inb_S1x1_S1x1_0_0
abbrev rCol : Rect S2000x1 := Rect.unit (s := S2000x1) ![0, 0] S2000x1.size inb_S2000x1_S2000x1_0_0

/-- The read-out block after the body: its one store, the head applied to the cell's state (the cell's three intermediate
    values are the body's first part's results, of the loaded blocks). -/
def out1_12 (x0 x1 x2 x3 : Vec F S2000x32 .f32) (x4 : Vec F S64x32 .f32) (x5 : Vec F S1x32 .f32) (x6 : Vec F S64x32 .f32) (x7 : Vec F S1x32 .f32)
    (x8 : Vec F S64x32 .f32) (x9 : Vec F S1x32 .f32) (x10 : Vec F S32x1 .f32) (x11 : Vec F S1x1 .f32) : Vec F S2000x1 .f32 :=
  View.canon [⟨rCol, k1_pay2 (View.ld x3 rRows) (k1_pay3 (View.ld x0 rRows) (View.ld x3 rRows) (View.ld x4 rMat) (View.ld x5 rBias))
    (k1_pay4 (View.ld x1 rRows) (View.ld x2 rRows) (View.ld x3 rRows) (View.ld x6 rMat) (View.ld x7 rBias) (View.ld x8 rMat))
    (k1_pay5 (View.ld x9 rBias)) (View.ld x10 rHeadW) (View.ld x11 rHeadB)⟩]

/-- The hidden-state block after the body: its one store, the cell's new state. -/
def out1_13 (x0 x1 x2 x3 : Vec F S2000x32 .f32) (x4 : Vec F S64x32 .f32) (x5 : Vec F S1x32 .f32) (x6 : Vec F S64x32 .f32) (x7 : Vec F S1x32 .f32)
    (x8 : Vec F S64x32 .f32) (x9 : Vec F S1x32 .f32) : Vec F S2000x32 .f32 :=
  View.canon [⟨rRows, k1_pay1 (View.ld x3 rRows) (k1_pay3 (View.ld x0 rRows) (View.ld x3 rRows) (View.ld x4 rMat) (View.ld x5 rBias))
    (k1_pay4 (View.ld x1 rRows) (View.ld x2 rRows) (View.ld x3 rRows) (View.ld x6 rMat) (View.ld x7 rBias) (View.ld x8 rMat))
    (k1_pay5 (View.ld x9 rBias))⟩]

/-- Each store fills its block. -/
theorem cover1_12 (p0 : Vec F S2000x1 .f32) (y : S2000x1.Idx) :
    ∃ pc ∈ ([⟨rCol, p0⟩] : List (View.Piece (Elt F) S2000x1 .f32)), y ∈ pc.1.set :=
  View.cover_of_tiled [⟨rCol, p0⟩] S2000x1.size (by rfl) y
theorem cover1_13 (p0 : Vec F S2000x32 .f32) (y : S2000x32.Idx) :
    ∃ pc ∈ ([⟨rRows, p0⟩] : List (View.Piece (Elt F) S2000x32 .f32)), y ∈ pc.1.set :=
  View.cover_of_tiled [⟨rRows, p0⟩] S2000x32.size (by rfl) y

set_option maxHeartbeats 4000000 in
/-- The body on whole buffers, the inputs' holding `x0 … x11` and the outputs' anything, runs to the continuation with the
    inputs' as they were and the outputs' at `out1_12`, `out1_13` of them. -/
theorem sound_kernel1 (c : Dev nD) (E : Set ℕ) (i : grid1.Coords)
    (arg1 : Memref sig .tc .vmem S2000x32 .f32) (harg1 : arg1.IsWhole) (arg2 : Memref sig .tc .vmem S2000x32 .f32) (harg2 : arg2.IsWhole)
    (arg3 : Memref sig .tc .vmem S2000x32 .f32) (harg3 : arg3.IsWhole) (arg4 : Memref sig .tc .vmem S2000x32 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S64x32 .f32) (harg7 : arg7.IsWhole) (arg8 : Memref sig .tc .vmem S1x32 .f32) (harg8 : arg8.IsWhole)
    (arg9 : Memref sig .tc .vmem S64x32 .f32) (harg9 : arg9.IsWhole) (arg10 : Memref sig .tc .vmem S1x32 .f32) (harg10 : arg10.IsWhole)
    (arg11 : Memref sig .tc .vmem S32x1 .f32) (harg11 : arg11.IsWhole) (arg12 : Memref sig .tc .vmem S1x1 .f32) (harg12 : arg12.IsWhole)
    (arg13 : Memref sig .tc .vmem S2000x1 .f32) (harg13 : arg13.IsWhole) (arg14 : Memref sig .tc .vmem S2000x32 .f32) (harg14 : arg14.IsWhole)
    (x0 x1 x2 x3 : Vec F S2000x32 .f32) (x4 : Vec F S64x32 .f32) (x5 : Vec F S1x32 .f32) (x6 : Vec F S64x32 .f32) (x7 : Vec F S1x32 .f32)
    (x8 : Vec F S64x32 .f32) (x9 : Vec F S1x32 .f32) (x10 : Vec F S32x1 .f32) (x11 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (out1_12 x0 x1 x2 x3 x4 x5 x6 x7 x8 x9 x10 x11)
            ∗ owns (c : Thread nD τ) arg14 fullShare (out1_13 x0 x1 x2 x3 x4 x5 x6 x7 x8 x9)) -∗ K ⟨⟩))
      ⊢ wp frame (wpE (defs₀ (F := F)) Variants.none c none) E
          (cc1__gru_head_kernel i arg1 harg1 arg2 harg2 arg3 harg3 arg4 harg4 arg5 harg5 arg6 harg6 arg7 harg7 arg8 harg8 arg9 harg9
            arg10 harg10 arg11 harg11 arg12 harg12 arg13 harg13 arg14 harg14) K := by
  simp only [cc1__gru_head_kernel_eq_skeleton]; unfold cc1__gru_head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover1_12 _)
  iexists _; isplitr
  swap; · iexact H13
  ipureintro
  try dsimp only
  exact View.read_writes_eq_canon _ _ _ (cover1_13 _)

/-- The proof data of the call on core `c`: the arrays as found; after the body at point `t` each input's buffer at its block,
    the read-out's at `out1_12` and the hidden state's at `out1_13` of the input blocks; the scoped rest and the generator
    register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t)
    | ⟨13, _⟩ => out1_13 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = out1_13 (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d
theorem before1_9 (c : Dev nD) (t : Fin cfg1.N) (d) : (dat1 V c).before 9 t d = iblk1 V c 9 t := before1_9_of V (dat1 V c) (A_eq1 V c 9) (after1_9 V c) t d
theorem before1_10 (c : Dev nD) (t : Fin cfg1.N) (d) : (dat1 V c).before 10 t d = iblk1 V c 10 t := before1_10_of V (dat1 V c) (A_eq1 V c 10) (after1_10 V c) t d
theorem before1_11 (c : Dev nD) (t : Fin cfg1.N) (d) : (dat1 V c).before 11 t d = iblk1 V c 11 t := before1_11_of V (dat1 V c) (A_eq1 V c 11) (after1_11 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: the inputs' buffers hold their blocks, so `sound_kernel1` applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KernelIdeal.Run.lean ====
/-
  The whole program from launch to return: five host operations (the two rows of the edge list taken apart, the three weight
  matrices joined side by side), the first pipelined call (the matrix product), one hundred and five host operations (the three
  column blocks of the product, the degree normalisation, the three weighted neighbourhood sums with their self terms and biases,
  the four biases reshaped to rows), and the second pipelined call (the recurrent cell and head).

  The buffer contents at each of the five boundaries are a fold from the launch memory: a stretch of host operations applies
  them in order; a pipelined call leaves its input arrays as it found them and each output array at what its write-backs leave.
  No host operation and no call writes an argument, so the fold read at an argument's buffer walks back to the launch memory.
  Every weakly fair execution terminates without fault, and at the end every unscoped buffer holds the last boundary's contents:
  from this both the frame claim (the arguments end as launched) and the two results' values are read.
-/
import proofs.«114561_j77266461655170_1_alg».proof.Proof.KernelIdeal.Body0
import proofs.«114561_j77266461655170_1_alg».proof.Proof.KernelIdeal.Body1

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first five host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the hundred and five host operations between the calls (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- No operation of a stretch writes the buffer: each operation writes its one result buffer, which is another reference. -/
local macro "not_written" : tactic => `(tactic| (
  refine List.forall_iff_forall_mem.mp ?_
  simp only [hostOps0, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

theorem W1_main_arg0 (c : Dev nD) : W1 m ρ c (Proc.devRef .tc main_arg0) = m ((c : Thread nD τ).loc main_arg0) :=
  (StableHlo.after_of_forall_not_mem (b := Proc.devRef .tc main_arg0) _ _ (by not_written)).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (by not_written)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W1_main_arg1 (c : Dev nD) : W1 m ρ c (Proc.devRef .tc main_arg1) = m ((c : Thread nD τ).loc main_arg1) :=
  (StableHlo.after_of_forall_not_mem (b := Proc.devRef .tc main_arg1) _ _ (by not_written)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (by not_written)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W1_main_arg2 (c : Dev nD) : W1 m ρ c (Proc.devRef .tc main_arg2) = m ((c : Thread nD τ).loc main_arg2) :=
  (StableHlo.after_of_forall_not_mem (b := Proc.devRef .tc main_arg2) _ _ (by not_written)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (by not_written)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W1_main_arg3 (c : Dev nD) : W1 m ρ c (Proc.devRef .tc main_arg3) = m ((c : Thread nD τ).loc main_arg3) :=
  (StableHlo.after_of_forall_not_mem (b := Proc.devRef .tc main_arg3) _ _ (by not_written)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (by not_written)).trans (W2_main_arg3 m ρ c)
theorem W4_main_arg3 (c : Dev nD) : W4 m ρ c (Proc.devRef .tc main_arg3) = m ((c : Thread nD τ).loc main_arg3) :=
  ((W4_arr m ρ c 3).trans (((dat1 (V3 m ρ) c).arrAt_in 3 rfl _).trans (A_eq1 (V3 m ρ) c 3))).trans (W3_main_arg3 m ρ c)
theorem W1_main_arg4 (c : Dev nD) : W1 m ρ c (Proc.devRef .tc main_arg4) = m ((c : Thread nD τ).loc main_arg4) :=
  (StableHlo.after_of_forall_not_mem (b := Proc.devRef .tc main_arg4) _ _ (by not_written)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (by not_written)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W1_main_arg5 (c : Dev nD) : W1 m ρ c (Proc.devRef .tc main_arg5) = m ((c : Thread nD τ).loc main_arg5) :=
  (StableHlo.after_of_forall_not_mem (b := Proc.devRef .tc main_arg5) _ _ (by not_written)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (by not_written)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W1_main_arg6 (c : Dev nD) : W1 m ρ c (Proc.devRef .tc main_arg6) = m ((c : Thread nD τ).loc main_arg6) :=
  (StableHlo.after_of_forall_not_mem (b := Proc.devRef .tc main_arg6) _ _ (by not_written)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (by not_written)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W1_main_arg7 (c : Dev nD) : W1 m ρ c (Proc.devRef .tc main_arg7) = m ((c : Thread nD τ).loc main_arg7) :=
  (StableHlo.after_of_forall_not_mem (b := Proc.devRef .tc main_arg7) _ _ (by not_written)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (by not_written)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W1_main_arg8 (c : Dev nD) : W1 m ρ c (Proc.devRef .tc main_arg8) = m ((c : Thread nD τ).loc main_arg8) :=
  (StableHlo.after_of_forall_not_mem (b := Proc.devRef .tc main_arg8) _ _ (by not_written)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_forall_not_mem (b := Proc.devRef .tc main_arg8) _ _ (by not_written)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W1_main_arg9 (c : Dev nD) : W1 m ρ c (Proc.devRef .tc main_arg9) = m ((c : Thread nD τ).loc main_arg9) :=
  (StableHlo.after_of_forall_not_mem (b := Proc.devRef .tc main_arg9) _ _ (by not_written)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_forall_not_mem (b := Proc.devRef .tc main_arg9) _ _ (by not_written)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W1_main_arg10 (c : Dev nD) : W1 m ρ c (Proc.devRef .tc main_arg10) = m ((c : Thread nD τ).loc main_arg10) :=
  (StableHlo.after_of_forall_not_mem (b := Proc.devRef .tc main_arg10) _ _ (by not_written)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_forall_not_mem (b := Proc.devRef .tc main_arg10) _ _ (by not_written)).trans (W2_main_arg10 m ρ c)
theorem W4_main_arg10 (c : Dev nD) : W4 m ρ c (Proc.devRef .tc main_arg10) = m ((c : Thread nD τ).loc main_arg10) :=
  ((W4_arr m ρ c 4).trans (((dat1 (V3 m ρ) c).arrAt_in 4 rfl _).trans (A_eq1 (V3 m ρ) c 4))).trans (W3_main_arg10 m ρ c)
theorem W1_main_arg11 (c : Dev nD) : W1 m ρ c (Proc.devRef .tc main_arg11) = m ((c : Thread nD τ).loc main_arg11) :=
  (StableHlo.after_of_forall_not_mem (b := Proc.devRef .tc main_arg11) _ _ (by not_written)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_forall_not_mem (b := Proc.devRef .tc main_arg11) _ _ (by not_written)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W1_main_arg12 (c : Dev nD) : W1 m ρ c (Proc.devRef .tc main_arg12) = m ((c : Thread nD τ).loc main_arg12) :=
  (StableHlo.after_of_forall_not_mem (b := Proc.devRef .tc main_arg12) _ _ (by not_written)).trans rfl
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (StableHlo.after_of_forall_not_mem (b := Proc.devRef .tc main_arg12) _ _ (by not_written)).trans (W2_main_arg12 m ρ c)
theorem W4_main_arg12 (c : Dev nD) : W4 m ρ c (Proc.devRef .tc main_arg12) = m ((c : Thread nD τ).loc main_arg12) :=
  ((W4_arr m ρ c 6).trans (((dat1 (V3 m ρ) c).arrAt_in 6 rfl _).trans (A_eq1 (V3 m ρ) c 6))).trans (W3_main_arg12 m ρ c)
theorem W1_main_arg13 (c : Dev nD) : W1 m ρ c (Proc.devRef .tc main_arg13) = m ((c : Thread nD τ).loc main_arg13) :=
  (StableHlo.after_of_forall_not_mem (b := Proc.devRef .tc main_arg13) _ _ (by not_written)).trans rfl
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) :=
  (StableHlo.after_of_forall_not_mem (b := Proc.devRef .tc main_arg13) _ _ (by not_written)).trans (W2_main_arg13 m ρ c)
theorem W4_main_arg13 (c : Dev nD) : W4 m ρ c (Proc.devRef .tc main_arg13) = m ((c : Thread nD τ).loc main_arg13) :=
  (W4_of_ne m ρ c main_arg13 (by decide)).trans (W3_main_arg13 m ρ c)
theorem W1_main_arg14 (c : Dev nD) : W1 m ρ c (Proc.devRef .tc main_arg14) = m ((c : Thread nD τ).loc main_arg14) :=
  (StableHlo.after_of_forall_not_mem (b := Proc.devRef .tc main_arg14) _ _ (by not_written)).trans rfl
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) :=
  (StableHlo.after_of_forall_not_mem (b := Proc.devRef .tc main_arg14) _ _ (by not_written)).trans (W2_main_arg14 m ρ c)
theorem W4_main_arg14 (c : Dev nD) : W4 m ρ c (Proc.devRef .tc main_arg14) = m ((c : Thread nD τ).loc main_arg14) :=
  ((W4_arr m ρ c 8).trans (((dat1 (V3 m ρ) c).arrAt_in 8 rfl _).trans (A_eq1 (V3 m ρ) c 8))).trans (W3_main_arg14 m ρ c)
theorem W1_main_arg15 (c : Dev nD) : W1 m ρ c (Proc.devRef .tc main_arg15) = m ((c : Thread nD τ).loc main_arg15) :=
  (StableHlo.after_of_forall_not_mem (b := Proc.devRef .tc main_arg15) _ _ (by not_written)).trans rfl
theorem W2_main_arg15 (c : Dev nD) : W2 m ρ c (Proc.devRef .tc main_arg15) = m ((c : Thread nD τ).loc main_arg15) :=
  (W2_of_ne m ρ c main_arg15 (by decide)).trans (W1_main_arg15 m ρ c)
theorem W3_main_arg15 (c : Dev nD) : W3 m ρ c (Proc.devRef .tc main_arg15) = m ((c : Thread nD τ).loc main_arg15) :=
  (StableHlo.after_of_forall_not_mem (b := Proc.devRef .tc main_arg15) _ _ (by not_written)).trans (W2_main_arg15 m ρ c)
theorem W4_main_arg15 (c : Dev nD) : W4 m ρ c (Proc.devRef .tc main_arg15) = m ((c : Thread nD τ).loc main_arg15) :=
  (W4_of_ne m ρ c main_arg15 (by decide)).trans (W3_main_arg15 m ρ c)
theorem W1_main_arg16 (c : Dev nD) : W1 m ρ c (Proc.devRef .tc main_arg16) = m ((c : Thread nD τ).loc main_arg16) :=
  (StableHlo.after_of_forall_not_mem (b := Proc.devRef .tc main_arg16) _ _ (by not_written)).trans rfl
theorem W2_main_arg16 (c : Dev nD) : W2 m ρ c (Proc.devRef .tc main_arg16) = m ((c : Thread nD τ).loc main_arg16) :=
  (W2_of_ne m ρ c main_arg16 (by decide)).trans (W1_main_arg16 m ρ c)
theorem W3_main_arg16 (c : Dev nD) : W3 m ρ c (Proc.devRef .tc main_arg16) = m ((c : Thread nD τ).loc main_arg16) :=
  (StableHlo.after_of_forall_not_mem (b := Proc.devRef .tc main_arg16) _ _ (by not_written)).trans (W2_main_arg16 m ρ c)
theorem W4_main_arg16 (c : Dev nD) : W4 m ρ c (Proc.devRef .tc main_arg16) = m ((c : Thread nD τ).loc main_arg16) :=
  ((W4_arr m ρ c 10).trans (((dat1 (V3 m ρ) c).arrAt_in 10 rfl _).trans (A_eq1 (V3 m ρ) c 10))).trans (W3_main_arg16 m ρ c)
theorem W1_main_arg17 (c : Dev nD) : W1 m ρ c (Proc.devRef .tc main_arg17) = m ((c : Thread nD τ).loc main_arg17) :=
  (StableHlo.after_of_forall_not_mem (b := Proc.devRef .tc main_arg17) _ _ (by not_written)).trans rfl
theorem W2_main_arg17 (c : Dev nD) : W2 m ρ c (Proc.devRef .tc main_arg17) = m ((c : Thread nD τ).loc main_arg17) :=
  (W2_of_ne m ρ c main_arg17 (by decide)).trans (W1_main_arg17 m ρ c)
theorem W3_main_arg17 (c : Dev nD) : W3 m ρ c (Proc.devRef .tc main_arg17) = m ((c : Thread nD τ).loc main_arg17) :=
  (StableHlo.after_of_forall_not_mem (b := Proc.devRef .tc main_arg17) _ _ (by not_written)).trans (W2_main_arg17 m ρ c)
theorem W4_main_arg17 (c : Dev nD) : W4 m ρ c (Proc.devRef .tc main_arg17) = m ((c : Thread nD τ).loc main_arg17) :=
  (W4_of_ne m ρ c main_arg17 (by decide)).trans (W3_main_arg17 m ρ c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, and every final state holds
    the last boundary's contents in every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- Read at one unscoped buffer of the TensorCore. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  (θ_run defs _ _).mono (fun _ h c b hb => h c _ (mem_uc b hb)) (run_all m ρ)

end Cert.KernelIdeal.Body

end
-- ==== Proof.GruSpec.lean ====
/-
  The gated recurrent cell and its scalar head, one node (one row) at a time, on the extended reals.

  A node carries four rows of length 32: the three graph-convolution outputs `a` (update gate), `b` (reset gate),
  `g` (candidate) and the previous hidden state `h`.  With `u ⧺ v` the two rows joined end to end (length 64):
    Z  = σ ((a ⧺ h) · Lz + bz)              the update gate
    R  = σ ((b ⧺ h) · Lr + br)              the reset gate
    H~ = tanh ((g ⧺ (h ∘ R)) · Lh + bh)     the candidate state (`h ∘ R` the entrywise product)
    h' = Z ∘ h + (1 − Z) ∘ H~               the new hidden state
    y  = max(h', 0) · w + c                 the scalar read-out
  Every product of a row with a matrix is a finite sum over the joined axis; σ is the logistic function
  `1 / (1 + e^(−x))` and every operation is the exact one on the extended reals.
-/
import Idealize.ShloMosaic.PureOps.Ideal
import Idealize.ShloMosaic.PureOps.Ideal.Laws
import Idealize.ShloMosaic.Lib.IdealHost
import Mathlib.Algebra.BigOperators.Fin

noncomputable section

namespace Cert.GruSpec

open Idealize.ShloMosaic

/-- Two rows of length 32 joined end to end: position `k < 32` reads the first, position `k ≥ 32` the second at `k − 32`. -/
def cat (u v : Fin 32 → EReal) (k : Fin 64) : EReal :=
  if h : k.val < 32 then u ⟨k.val, h⟩ else v ⟨k.val - 32, by have := k.isLt; omega⟩

/-- A gate: the logistic function of the joined row times a 64 × 32 matrix, plus a bias. -/
def gate (u v : Fin 32 → EReal) (L : Fin 64 → Fin 32 → EReal) (b : Fin 32 → EReal) (j : Fin 32) : EReal :=
  Ideal.logistic ((∑ k : Fin 64, cat u v k * L k j) + b j)

/-- The candidate state: the hyperbolic tangent of the row `g` joined with `h ∘ R`, times a 64 × 32 matrix, plus a bias. -/
def cand (g h R : Fin 32 → EReal) (L : Fin 64 → Fin 32 → EReal) (b : Fin 32 → EReal) (j : Fin 32) : EReal :=
  Ideal.tanh ((∑ k : Fin 64, cat g (fun k => h k * R k) k * L k j) + b j)

/-- The new hidden state of one node at position `j`: `Z · h + (1 − Z) · H~`. -/
def hRow (a b g h : Fin 32 → EReal) (Lz : Fin 64 → Fin 32 → EReal) (bz : Fin 32 → EReal)
    (Lr : Fin 64 → Fin 32 → EReal) (br : Fin 32 → EReal) (Lh : Fin 64 → Fin 32 → EReal) (bh : Fin 32 → EReal)
    (j : Fin 32) : EReal :=
  gate a h Lz bz j * h j + (1 - gate a h Lz bz j) * cand g h (gate b h Lr br) Lh bh j

/-- The scalar read-out of one node: the positive part of its new hidden state against a weight row, plus a bias. -/
def yRow (a b g h : Fin 32 → EReal) (Lz : Fin 64 → Fin 32 → EReal) (bz : Fin 32 → EReal)
    (Lr : Fin 64 → Fin 32 → EReal) (br : Fin 32 → EReal) (Lh : Fin 64 → Fin 32 → EReal) (bh : Fin 32 → EReal)
    (w : Fin 32 → EReal) (c : EReal) : EReal :=
  (∑ j : Fin 32, max (hRow a b g h Lz bz Lr br Lh bh j) 0 * w j) + c

/-- The single-precision word `0x3F800000` is the number one. -/
theorem word_one : Ideal.ofBits .f32 0x3F800000#32 = (1 : EReal) := Ideal.ofBits_one_f32

/-- The single-precision word `0x00000000` is the number zero. -/
theorem word_zero : Ideal.ofBits .f32 0x00000000#32 = (0 : EReal) := Ideal.ofBits_zero_f32

end Cert.GruSpec

end
-- ==== Proof.KerPay.lean ====
/-
  The kernels' arithmetic read one element at a time, on the extended reals.

  The first kernel is a product of a 2000 × 256 block with a 256 × 96 matrix; every element of the result is the finite
  sum over the joined axis.  The second kernel is the gated recurrent cell and its scalar head on a block of 2000 rows:
  every element of the new hidden state is the cell's formula on that row, and every element of the read-out is the
  head's formula on that row.  A change of number format is the identity on the extended reals, a cast of a shape to
  itself is the identity, a row broadcast down the rows reads the row, and two blocks joined along the columns read
  the first block below column 32 and the second block from column 32 on.
-/
import proofs.«114561_j77266461655170_1_alg».proof.Proof.Gen.KernelIdeal.Skeleton
import proofs.«114561_j77266461655170_1_alg».proof.Proof.GruSpec
import Idealize.ShloMosaic.Lib.Pipeline.Value
import Idealize.ShloMosaic.Lib.ValueIdx
import Idealize.ShloMosaic.PureOps.Ideal.Laws

noncomputable section

namespace Cert.KerPay

open Idealize.ShloMosaic Idealize.SL.Sem
open Idealize.ShloMosaic.ValueIdx
open Cert.GruSpec
open Cert.KernelIdeal Cert.KernelIdeal.Gen
open scoped BigOperators

/-! ## A matrix product into a zero accumulator, read at an element

For each of the three products: the operands' coordinates at an output index and a joined position, then the element
as the finite sum over the joined axis. -/

/-- The 2000 × 256 by 256 × 96 product: its operands' coordinates, and its element at row `p`, column `q`. -/
theorem mm256_l0 (i : S2000x96.Idx) (c : dot_S2000x256_S256x96_S2000x96_1_0_0_1_n_n.contr.Idx) : (dot_S2000x256_S256x96_S2000x96_1_0_0_1_n_n.lhsIdx i c 0).val = (i 0).val := by
  unfold DotDims.lhsIdx
  rw [dif_neg (show ¬(0 : Fin S2000x256.rank) ∈ dot_S2000x256_S256x96_S2000x96_1_0_0_1_n_n.lhsBatch by decide),
    dif_pos (show (0 : Fin S2000x256.rank) ∈ dot_S2000x256_S256x96_S2000x96_1_0_0_1_n_n.lhsNonContracting by decide)]
  rfl
theorem mm256_l1 (i : S2000x96.Idx) (c : dot_S2000x256_S256x96_S2000x96_1_0_0_1_n_n.contr.Idx) : (dot_S2000x256_S256x96_S2000x96_1_0_0_1_n_n.lhsIdx i c 1).val = (c ⟨0, by decide⟩).val :=
  dot_S2000x256_S256x96_S2000x96_1_0_0_1_n_n.lhsIdx_val_of_single rfl i c
theorem mm256_r0 (i : S2000x96.Idx) (c : dot_S2000x256_S256x96_S2000x96_1_0_0_1_n_n.contr.Idx) : (dot_S2000x256_S256x96_S2000x96_1_0_0_1_n_n.rhsIdx i c 0).val = (c ⟨0, by decide⟩).val :=
  dot_S2000x256_S256x96_S2000x96_1_0_0_1_n_n.rhsIdx_val_of_single rfl i c
theorem mm256_r1 (i : S2000x96.Idx) (c : dot_S2000x256_S256x96_S2000x96_1_0_0_1_n_n.contr.Idx) : (dot_S2000x256_S256x96_S2000x96_1_0_0_1_n_n.rhsIdx i c 1).val = (i 1).val := by
  unfold DotDims.rhsIdx
  rw [dif_neg (show ¬(1 : Fin S256x96.rank) ∈ dot_S2000x256_S256x96_S2000x96_1_0_0_1_n_n.rhsBatch by decide),
    dif_pos (show (1 : Fin S256x96.rank) ∈ dot_S2000x256_S256x96_S2000x96_1_0_0_1_n_n.rhsNonContracting by decide)]
  rfl
theorem mm256_apply (a : FVec Ideal S2000x256 .bf16) (b : FVec Ideal S256x96 .bf16) (p : Fin 2000) (q : Fin 96) :
    FloatOps.matmul dot_S2000x256_S256x96_S2000x96_1_0_0_1_n_n none a b (constant S2000x96 .f32 0x00000000#32) (ix2 p q)
      = ∑ k : Fin 256, a (ix2 p k) * b (ix2 k q) := by
  rw [Ideal.matmul_constant_zero_apply, ← Equiv.sum_comp (contrEquiv1 dot_S2000x256_S256x96_S2000x96_1_0_0_1_n_n 256 rfl rfl).symm]
  refine Finset.sum_congr rfl fun k _ => ?_
  have hk := contrEquiv1_symm_val dot_S2000x256_S256x96_S2000x96_1_0_0_1_n_n 256 rfl rfl k
  have el : dot_S2000x256_S256x96_S2000x96_1_0_0_1_n_n.lhsIdx (ix2 p q) ((contrEquiv1 dot_S2000x256_S256x96_S2000x96_1_0_0_1_n_n 256 rfl rfl).symm k) = ix2 p k :=
    funext fun c => Fin.ext (by
      match c with
      | ⟨0, _⟩ => exact mm256_l0 _ _
      | ⟨1, _⟩ => exact (mm256_l1 _ _).trans hk)
  have er : dot_S2000x256_S256x96_S2000x96_1_0_0_1_n_n.rhsIdx (ix2 p q) ((contrEquiv1 dot_S2000x256_S256x96_S2000x96_1_0_0_1_n_n 256 rfl rfl).symm k) = ix2 k q :=
    funext fun c => Fin.ext (by
      match c with
      | ⟨0, _⟩ => exact (mm256_r0 _ _).trans hk
      | ⟨1, _⟩ => exact mm256_r1 _ _)
  rw [el, er]

/-- The 2000 × 64 by 64 × 32 product: its operands' coordinates, and its element at row `p`, column `q`. -/
theorem mm64_l0 (i : S2000x32.Idx) (c : dot_S2000x64_S64x32_S2000x32_1_0_0_1_n_n.contr.Idx) : (dot_S2000x64_S64x32_S2000x32_1_0_0_1_n_n.lhsIdx i c 0).val = (i 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl
theorem mm64_l1 (i : S2000x32.Idx) (c : dot_S2000x64_S64x32_S2000x32_1_0_0_1_n_n.contr.Idx) : (dot_S2000x64_S64x32_S2000x32_1_0_0_1_n_n.lhsIdx i c 1).val = (c ⟨0, by decide⟩).val :=
  dot_S2000x64_S64x32_S2000x32_1_0_0_1_n_n.lhsIdx_val_of_single rfl i c
theorem mm64_r0 (i : S2000x32.Idx) (c : dot_S2000x64_S64x32_S2000x32_1_0_0_1_n_n.contr.Idx) : (dot_S2000x64_S64x32_S2000x32_1_0_0_1_n_n.rhsIdx i c 0).val = (c ⟨0, by decide⟩).val :=
  dot_S2000x64_S64x32_S2000x32_1_0_0_1_n_n.rhsIdx_val_of_single rfl i c
theorem mm64_r1 (i : S2000x32.Idx) (c : dot_S2000x64_S64x32_S2000x32_1_0_0_1_n_n.contr.Idx) : (dot_S2000x64_S64x32_S2000x32_1_0_0_1_n_n.rhsIdx i c 1).val = (i 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl
theorem mm64_apply (a : FVec Ideal S2000x64 .bf16) (b : FVec Ideal S64x32 .bf16) (p : Fin 2000) (q : Fin 32) :
    FloatOps.matmul dot_S2000x64_S64x32_S2000x32_1_0_0_1_n_n none a b (constant S2000x32 .f32 0x00000000#32) (ix2 p q)
      = ∑ k : Fin 64, a (ix2 p k) * b (ix2 k q) := by
  rw [Ideal.matmul_constant_zero_apply, ← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx (ix2 p q) ((contrEquiv1 dot_S2000x64_S64x32_S2000x32_1_0_0_1_n_n 64 rfl rfl).symm k) = ix2 p k :=
    funext fun c => Fin.ext (by
      match c with
      | ⟨0, _⟩ => exact mm64_l0 _ _
      | ⟨1, _⟩ => exact (mm64_l1 _ _).trans hk)
  have er : dot_S2000x64_S64x32_S2000x32_1_0_0_1_n_n.rhsIdx (ix2 p q) ((contrEquiv1 dot_S2000x64_S64x32_S2000x32_1_0_0_1_n_n 64 rfl rfl).symm k) = ix2 k q :=
    funext fun c => Fin.ext (by
      match c with
      | ⟨0, _⟩ => exact (mm64_r0 _ _).trans hk
      | ⟨1, _⟩ => exact mm64_r1 _ _)
  rw [el, er]

/-- The 2000 × 32 by 32 × 1 product: its operands' coordinates, and its element at row `p`, column `q`. -/
theorem mm32_l0 (i : S2000x1.Idx) (c : dot_S2000x32_S32x1_S2000x1_1_0_0_1_n_n.contr.Idx) : (dot_S2000x32_S32x1_S2000x1_1_0_0_1_n_n.lhsIdx i c 0).val = (i 0).val := by
  unfold DotDims.lhsIdx
  rw [dif_neg (show ¬(0 : Fin S2000x32.rank) ∈ dot_S2000x32_S32x1_S2000x1_1_0_0_1_n_n.lhsBatch by decide),
    dif_pos (show (0 : Fin S2000x32.rank) ∈ dot_S2000x32_S32x1_S2000x1_1_0_0_1_n_n.lhsNonContracting by decide)]
  rfl
theorem mm32_l1 (i : S2000x1.Idx) (c : dot_S2000x32_S32x1_S2000x1_1_0_0_1_n_n.contr.Idx) : (dot_S2000x32_S32x1_S2000x1_1_0_0_1_n_n.lhsIdx i c 1).val = (c ⟨0, by decide⟩).val :=
  dot_S2000x32_S32x1_S2000x1_1_0_0_1_n_n.lhsIdx_val_of_single rfl i c
theorem mm32_r0 (i : S2000x1.Idx) (c : dot_S2000x32_S32x1_S2000x1_1_0_0_1_n_n.contr.Idx) : (dot_S2000x32_S32x1_S2000x1_1_0_0_1_n_n.rhsIdx i c 0).val = (c ⟨0, by decide⟩).val :=
  dot_S2000x32_S32x1_S2000x1_1_0_0_1_n_n.rhsIdx_val_of_single rfl i c
theorem mm32_r1 (i : S2000x1.Idx) (c : dot_S2000x32_S32x1_S2000x1_1_0_0_1_n_n.contr.Idx) : (dot_S2000x32_S32x1_S2000x1_1_0_0_1_n_n.rhsIdx i c 1).val = (i 1).val := by
  unfold DotDims.rhsIdx
  rw [dif_neg (show ¬(1 : Fin S32x1.rank) ∈ dot_S2000x32_S32x1_S2000x1_1_0_0_1_n_n.rhsBatch by decide),
    dif_pos (show (1 : Fin S32x1.rank) ∈ dot_S2000x32_S32x1_S2000x1_1_0_0_1_n_n.rhsNonContracting by decide)]
  rfl
theorem mm32_apply (a : FVec Ideal S2000x32 .bf16) (b : FVec Ideal S32x1 .bf16) (p : Fin 2000) (q : Fin 1) :
    FloatOps.matmul dot_S2000x32_S32x1_S2000x1_1_0_0_1_n_n none a b (constant S2000x1 .f32 0x00000000#32) (ix2 p q)
      = ∑ k : Fin 32, a (ix2 p k) * b (ix2 k q) := by
  rw [Ideal.matmul_constant_zero_apply, ← Equiv.sum_comp (contrEquiv1 dot_S2000x32_S32x1_S2000x1_1_0_0_1_n_n 32 rfl rfl).symm]
  refine Finset.sum_congr rfl fun k _ => ?_
  have hk := contrEquiv1_symm_val dot_S2000x32_S32x1_S2000x1_1_0_0_1_n_n 32 rfl rfl k
  have el : dot_S2000x32_S32x1_S2000x1_1_0_0_1_n_n.lhsIdx (ix2 p q) ((contrEquiv1 dot_S2000x32_S32x1_S2000x1_1_0_0_1_n_n 32 rfl rfl).symm k) = ix2 p k :=
    funext fun c => Fin.ext (by
      match c with
      | ⟨0, _⟩ => exact mm32_l0 _ _
      | ⟨1, _⟩ => exact (mm32_l1 _ _).trans hk)
  have er : dot_S2000x32_S32x1_S2000x1_1_0_0_1_n_n.rhsIdx (ix2 p q) ((contrEquiv1 dot_S2000x32_S32x1_S2000x1_1_0_0_1_n_n 32 rfl rfl).symm k) = ix2 k q :=
    funext fun c => Fin.ext (by
      match c with
      | ⟨0, _⟩ => exact (mm32_r0 _ _).trans hk
      | ⟨1, _⟩ => exact mm32_r1 _ _)
  rw [el, er]

/-- The first kernel's product at row `p`, column `q`. -/
theorem pay_matmul (x : Vec Ideal S2000x256 .f32) (w : Vec Ideal S256x96 .f32) (p : Fin 2000) (q : Fin 96) :
    k0_pay1 (F := Ideal) x w (ix2 p q) = ∑ k : Fin 256, x (ix2 p k) * w (ix2 k q) := by
  unfold k0_pay1
  refine (mm256_apply _ _ p q).trans ?_
  refine Finset.sum_congr rfl fun k _ => ?_
  rw [truncf_apply, truncf_apply, shapeCast_self]

/-! ## Joined blocks and broadcast rows, read at an element -/

/-- Two 2000 × 32 blocks joined along the columns, at row `p`, column `k`: row `p` of the first joined with row `p` of the second. -/
theorem cat_apply (u v : FVec Ideal S2000x32 .f32) (p : Fin 2000) (k : Fin 64) :
    concatenate S2000x64 1 [⟨S2000x32, u⟩, ⟨S2000x32, v⟩] concatenates_S2000x32_S2000x32_S2000x64_d1 (ix2 p k)
      = cat (fun j => u (ix2 p j)) (fun j => v (ix2 p j)) k := by
  unfold cat
  by_cases h : k.val < 32
  · rw [dif_pos h]
    exact concatenate_pair_apply_left 1 u v _ (ix2 p k) rfl (ix2 p ⟨k.val, h⟩)
      (fun b => match b with | ⟨0, _⟩ => rfl | ⟨1, _⟩ => rfl)
  · rw [dif_neg h]
    exact concatenate_pair_apply_right 1 u v _ (ix2 p k) rfl rfl (ix2 p ⟨k.val - 32, by have := k.isLt; omega⟩)
      (fun b => match b with | ⟨0, _⟩ => fun _ => rfl | ⟨1, _⟩ => fun hne => absurd rfl hne)
      (by show k.val - 32 + 32 = k.val; omega)

/-- A 1 × 32 row cast to its own shape and broadcast down 2000 rows reads the row's entry of the column. -/
theorem bias_apply (b : FVec Ideal S1x32 .f32) (p : Fin 2000) (j : Fin 32) :
    broadcastTo S2000x32 (shapeCast S1x32 b shapeCasts_S1x32_S1x32) broadcasts_S1x32_S2000x32 (ix2 p j) = b (ix2 0 j) := by
  rw [shapeCast_self]
  exact broadcastTo_apply b _ (ix2 p j) (ix2 0 j) (fun a => match a with | ⟨0, _⟩ => rfl | ⟨1, _⟩ => rfl)

/-- A 1 × 1 entry cast to its own shape and broadcast down 2000 rows reads the entry. -/
theorem bias1_apply (b : FVec Ideal S1x1 .f32) (p : Fin 2000) :
    broadcastTo S2000x1 (shapeCast S1x1 b shapeCasts_S1x1_S1x1) broadcasts_S1x1_S2000x1 (ix2 p 0) = b (ix2 0 0) := by
  rw [shapeCast_self]
  exact broadcastTo_apply b _ (ix2 p 0) (ix2 0 0) (fun a => match a with | ⟨0, _⟩ => rfl | ⟨1, _⟩ => rfl)

/-! ## The cell and the head, one element at a time -/

/-- A gate of the kernel at row `p`, position `j`: the logistic function of the joined row against the matrix, plus the bias. -/
theorem gate_apply (a h : Vec Ideal S2000x32 .f32) (L : Vec Ideal S64x32 .f32) (b : Vec Ideal S1x32 .f32)
    (p : Fin 2000) (j : Fin 32) :
    k1_pay3 (F := Ideal) a h L b (ix2 p j)
      = gate (fun k => a (ix2 p k)) (fun k => h (ix2 p k)) (fun k j => L (ix2 k j)) (fun j => b (ix2 0 j)) j := by
  unfold k1_pay3 gate
  show Ideal.logistic (_ + _) = _
  refine congrArg Ideal.logistic ?_
  refine congr (congrArg HAdd.hAdd ?_) (bias_apply b p j)
  refine (mm64_apply _ _ p j).trans ?_
  refine Finset.sum_congr rfl fun k _ => ?_
  rw [truncf_apply, truncf_apply, cat_apply, shapeCast_self]

/-- The candidate's product at row `p`, position `j`: the candidate row joined with the hidden row times the reset
    gate, against the matrix. -/
theorem candsum_apply (r g h : Vec Ideal S2000x32 .f32) (Lr : Vec Ideal S64x32 .f32) (br : Vec Ideal S1x32 .f32)
    (Lh : Vec Ideal S64x32 .f32) (p : Fin 2000) (j : Fin 32) :
    k1_pay4 (F := Ideal) r g h Lr br Lh (ix2 p j)
      = ∑ k : Fin 64, cat (fun k => g (ix2 p k))
          (fun k => h (ix2 p k) * gate (fun k => r (ix2 p k)) (fun k => h (ix2 p k)) (fun k j => Lr (ix2 k j)) (fun j => br (ix2 0 j)) k) k
          * Lh (ix2 k j) := by
  unfold k1_pay4
  refine (mm64_apply _ _ p j).trans ?_
  refine Finset.sum_congr rfl fun k _ => ?_
  rw [truncf_apply, truncf_apply, cat_apply]
  refine congrArg (· * Lh (ix2 k j)) ?_
  refine congr (congrArg₂ cat (funext fun j' => ?_) (funext fun j' => ?_)) rfl
  · rw [shapeCast_self]
  · show h (ix2 p j') * k1_pay3 (F := Ideal) r h Lr br (ix2 p j') = _
    rw [gate_apply]

/-- The candidate's bias at row `p`, position `j`. -/
theorem pay5_apply (b : Vec Ideal S1x32 .f32) (p : Fin 2000) (j : Fin 32) :
    k1_pay5 (F := Ideal) b (ix2 p j) = b (ix2 0 j) := by
  unfold k1_pay5
  exact bias_apply b p j

/-- The new hidden state the kernel stores, at row `p`, position `j`, is the cell's formula on row `p`. -/
theorem pay_h (gz gr gh hp : Vec Ideal S2000x32 .f32) (lzw : Vec Ideal S64x32 .f32) (lzb : Vec Ideal S1x32 .f32)
    (lrw : Vec Ideal S64x32 .f32) (lrb : Vec Ideal S1x32 .f32) (lhw : Vec Ideal S64x32 .f32) (lhb : Vec Ideal S1x32 .f32)
    (p : Fin 2000) (j : Fin 32) :
    k1_pay1 (F := Ideal) hp (k1_pay3 (F := Ideal) gz hp lzw lzb) (k1_pay4 (F := Ideal) gr gh hp lrw lrb lhw)
        (k1_pay5 (F := Ideal) lhb) (ix2 p j)
      = hRow (fun k => gz (ix2 p k)) (fun k => gr (ix2 p k)) (fun k => gh (ix2 p k)) (fun k => hp (ix2 p k))
          (fun k j => lzw (ix2 k j)) (fun j => lzb (ix2 0 j)) (fun k j => lrw (ix2 k j)) (fun j => lrb (ix2 0 j))
          (fun k j => lhw (ix2 k j)) (fun j => lhb (ix2 0 j)) j := by
  unfold k1_pay1 hRow cand
  show k1_pay3 (F := Ideal) gz hp lzw lzb (ix2 p j) * hp (ix2 p j)
      + (Ideal.ofBits .f32 0x3F800000#32 - k1_pay3 (F := Ideal) gz hp lzw lzb (ix2 p j))
        * Ideal.tanh (k1_pay4 (F := Ideal) gr gh hp lrw lrb lhw (ix2 p j) + k1_pay5 (F := Ideal) lhb (ix2 p j)) = _
  rw [gate_apply, candsum_apply, pay5_apply, word_one]

/-- The read-out the kernel stores, at row `p`, is the head's formula on row `p`. -/
theorem pay_y (gz gr gh hp : Vec Ideal S2000x32 .f32) (lzw : Vec Ideal S64x32 .f32) (lzb : Vec Ideal S1x32 .f32)
    (lrw : Vec Ideal S64x32 .f32) (lrb : Vec Ideal S1x32 .f32) (lhw : Vec Ideal S64x32 .f32) (lhb : Vec Ideal S1x32 .f32)
    (hw : Vec Ideal S32x1 .f32) (hb : Vec Ideal S1x1 .f32) (p : Fin 2000) :
    k1_pay2 (F := Ideal) hp (k1_pay3 (F := Ideal) gz hp lzw lzb) (k1_pay4 (F := Ideal) gr gh hp lrw lrb lhw)
        (k1_pay5 (F := Ideal) lhb) hw hb (ix2 p 0)
      = yRow (fun k => gz (ix2 p k)) (fun k => gr (ix2 p k)) (fun k => gh (ix2 p k)) (fun k => hp (ix2 p k))
          (fun k j => lzw (ix2 k j)) (fun j => lzb (ix2 0 j)) (fun k j => lrw (ix2 k j)) (fun j => lrb (ix2 0 j))
          (fun k j => lhw (ix2 k j)) (fun j => lhb (ix2 0 j)) (fun j => hw (ix2 j 0)) (hb (ix2 0 0)) := by
  unfold k1_pay2 yRow
  refine congr (congrArg HAdd.hAdd ?_) (bias1_apply hb p)
  refine (mm32_apply _ _ p 0).trans ?_
  refine Finset.sum_congr rfl fun k _ => ?_
  rw [truncf_apply, truncf_apply]
  show max (k1_pay1 (F := Ideal) hp (k1_pay3 (F := Ideal) gz hp lzw lzb) (k1_pay4 (F := Ideal) gr gh hp lrw lrb lhw)
      (k1_pay5 (F := Ideal) lhb) (ix2 p k)) (Ideal.ofBits .f32 0x00000000#32) * hw (ix2 k 0) = _
  rw [pay_h, word_zero]

/-! ## Three blocks joined along the columns -/

/-- Three 256 × 32 blocks joined along the columns, at row `k`, column `q`: the first block below column 32, the second
    from column 32 to below 64 at the column less 32, the third from column 64 on at the column less 64. -/
theorem cat3_apply (a b c : (⟨S256x32, .f32⟩ : BufTy).Contents (Elt Ideal)) (k : Fin 256) (q : Fin 96) :
    concatenate S256x96 1 [⟨S256x32, a⟩, ⟨S256x32, b⟩, ⟨S256x32, c⟩] concatenates_S256x32_S256x32_S256x32_S256x96_d1 (ix2 k q)
      = if h : q.val < 32 then a (ix2 k ⟨q.val, h⟩)
        else if h2 : q.val < 64 then b (ix2 k ⟨q.val - 32, by omega⟩)
        else c (ix2 k ⟨q.val - 64, by omega⟩) := by
  by_cases h : q.val < 32
  · rw [dif_pos h]
    exact concatenate_apply_piece 1 _ _ (ix2 k q) 0 (by show 0 < 3; omega) S256x32 a rfl rfl 0 rfl (ix2 k ⟨q.val, h⟩)
      (fun d => match d with | ⟨0, _⟩ => fun _ => rfl | ⟨1, _⟩ => fun hne => absurd rfl hne)
      (by show 0 + q.val = q.val; omega)
  · rw [dif_neg h]
    by_cases h2 : q.val < 64
    · rw [dif_pos h2]
      exact concatenate_apply_piece 1 _ _ (ix2 k q) 1 (by show 1 < 3; omega) S256x32 b rfl rfl 32 rfl (ix2 k ⟨q.val - 32, by omega⟩)
        (fun d => match d with | ⟨0, _⟩ => fun _ => rfl | ⟨1, _⟩ => fun hne => absurd rfl hne)
        (by show 32 + (q.val - 32) = q.val; omega)
    · rw [dif_neg h2]
      exact concatenate_apply_piece 1 _ _ (ix2 k q) 2 (by show 2 < 3; omega) S256x32 c rfl rfl 64 rfl (ix2 k ⟨q.val - 64, by omega⟩)
        (fun d => match d with | ⟨0, _⟩ => fun _ => rfl | ⟨1, _⟩ => fun hne => absurd rfl hne)
        (by show 64 + (q.val - 64) = q.val; omega)

end Cert.KerPay

end
-- ==== Proof.KernelIdeal.Blocks.lean ====
/-
  Each pipelined call's output array after the call, as one function of the arrays the call found.

  The first call tiles the rows of a 100000 × 256 array into 50 blocks of 2000 rows; point t multiplies block t by the whole
  256 × 96 matrix and writes block t of the 100000 × 96 result.  Element (r, q) of a block's product is the sum over the
  joined axis of row r against column q, and row p of block t is row 2000·t + p of the array, so what point t writes is block
  t of the product of the whole arrays; the 50 blocks cover every row, so the result array ends holding that product.
  The second call tiles the rows of the three gate inputs and of the previous hidden state the same way, keeps the six
  matrices and biases and the head's weight and bias whole, and point t writes block t of the new hidden state and of the
  read-out; each row of those is the cell's and the head's formula on that row, so the two result arrays end holding the
  formulas row by row.
-/
import proofs.«114561_j77266461655170_1_alg».proof.Proof.KernelIdeal.Body0
import proofs.«114561_j77266461655170_1_alg».proof.Proof.KernelIdeal.Body1
import proofs.«114561_j77266461655170_1_alg».proof.Proof.KerPay
import proofs.«114561_j77266461655170_1_alg».proof.Proof.GruSpec
import Idealize.ShloMosaic.Lib.Pipeline.Value
import Idealize.ShloMosaic.Lib.ValueIdx

noncomputable section

namespace Cert.KernelIdeal.Blocks

open Idealize.ShloMosaic Idealize.ShloMosaic.TcCoe Idealize.SL.Sem
open Idealize.ShloMosaic.Pipeline (Dat)
open Cert.KernelIdeal Cert.KernelIdeal.Gen Cert.KernelIdeal.Body Cert.GruSpec Cert.KerPay
open Idealize.ShloMosaic.ValueIdx
open scoped BigOperators

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-! ## The first call: the product, row block by row block -/

/-- The product of the whole arrays: element (r, q) is the sum over the joined axis of row r against column q. -/
def prodArr (X : (⟨S100000x256, .f32⟩ : BufTy).Contents (Elt Ideal)) (Wc : (⟨S256x96, .f32⟩ : BufTy).Contents (Elt Ideal)) :
    (⟨S100000x96, .f32⟩ : BufTy).Contents (Elt Ideal) :=
  fun i => ∑ k : Fin 256, X (ix2 ⟨(i 0).val, (i 0).isLt⟩ k) * Wc (ix2 k ⟨(i 1).val, (i 1).isLt⟩)

/-- The block index maps over the grid: point t's row blocks are block t, column blocks and the weight's block are block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of point t's two blocks, at (p, q), is the whole product at the element of the output's block. -/
theorem blk0_at (c : Dev nD) (t : Fin cfg0.N) (p : Fin 2000) (q : Fin 96) :
    k0_pay1 (F := Ideal) (iblk0 V c 0 t) (iblk0 V c 1 t) (ix2 p q)
      = prodArr (V c main_arg0) (V c main_v4) (((cfg0.win 2).blk t).view.emb (ix2 p q)) := by
  obtain ⟨e0, e1, e2, e3, e4, e5⟩ := idx_facts0 t
  refine (pay_matmul (iblk0 V c 0 t) (iblk0 V c 1 t) p q).trans ?_
  refine Finset.sum_congr rfl fun k _ => ?_
  refine congr (congrArg HMul.hMul ?_) ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  · show V c main_v4 (((cfg0.win 1).blk t).view.emb (ix2 k q)) = V c main_v4 _
    refine congrArg (V c main_v4) (funext fun a => Fin.ext ?_)
    match a with
    | ⟨0, _⟩ => show win0_1.index t (0 : Fin 2) * 256 + 1 * k.val = k.val; omega
    | ⟨1, _⟩ => show win0_1.index t (1 : Fin 2) * 96 + 1 * q.val = win0_2.index t (1 : Fin 2) * 96 + 1 * q.val; omega

/-- What point t writes back is block t of the whole product. -/
theorem flushed0_eq (c : Dev nD) (t : Fin cfg0.N) :
    (dat0 V c).flushed 2 t = ((cfg0.win 2).blk t).view.read (Elt Ideal) (prodArr (V c main_arg0) (V c main_v4)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x96) hz]
  funext j
  have hj : (ix2 (⟨(j 0).val, (j 0).isLt⟩ : Fin 2000) (⟨(j 1).val, (j 1).isLt⟩ : Fin 96) : S2000x96.Idx) = j := by
    funext a; match a with | ⟨0, _⟩ => rfl | ⟨1, _⟩ => rfl
  rw [← hj]
  exact blk0_at V c t _ _

/-- An index of the output array is in point t's block iff each coordinate is in the block's range on its axis. -/
theorem mem_blk0 (t : Fin cfg0.N) (i : S100000x96.Idx) :
    i ∈ ((cfg0.win 2).blk t).view.set ↔ ∀ a : Fin 2, win0_2.index t a * S2000x96.size a ≤ (i a).val
      ∧ (i a).val < win0_2.index t a * S2000x96.size a + S2000x96.size a := by
  show i ∈ ((View.whole main_v5).slice (win0_2.rect t)).set ↔ _
  rw [View.set_slice_whole, Rect.mem_set_unit]
  exact Iff.rfl

/-- Every row is in some point's block: row r in block r / 2000. -/
theorem cover0 (i : S100000x96.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 96 := (i 1).isLt
  have ht : (i 0).val / 2000 < cfg0.N := by rw [hN]; omega
  obtain ⟨e0, e1, e2, e3, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 96 ≤ (i 1).val
      ∧ (i 1).val < win0_2.index ⟨(i 0).val / 2000, ht⟩ (1 : Fin 2) * 96 + 96
    rw [e5]; omega

/-- The output array after the first call is the product of the arrays it found. -/
theorem arr0 (c : Dev nD) : (dat0 V c).arrAt 2 cfg0.N = prodArr (V c main_arg0) (V c main_v4) :=
  (dat0 V c).arrAt_eq_of_cover 2 (prodArr (V c main_arg0) (V c main_v4)) (fun t _ => flushed0_eq V c t) cover0

/-! ## The second call: the cell and the head, row block by row block -/

/-! The block index maps over the grid: a row-tiled window's block at point t is block t, every other block index is 0. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)
theorem idx1_13 : ∀ t : Fin cfg1.N, win1_13.index t (0 : Fin 2) = t.val ∧ win1_13.index t (1 : Fin 2) = 0 :=
  (by decide +kernel : ∀ t : Fin grid1.N, _)

/-! Each input block read where the arrays hold it: row p of a row block at point t is row 2000·t + p of its array; a matrix, a
    bias row, the head's weight and bias are read whole. -/
theorem rd1_0 (c : Dev nD) (t : Fin cfg1.N) (p : Fin 2000) (k : Fin 32) (r : Fin 100000) (hr : r.val = t.val * 2000 + p.val) :
    iblk1 V c 0 t (ix2 p k) = V c main_v51 (ix2 r k) := by
  obtain ⟨e0, e1⟩ := idx1_0 t
  show V c main_v51 (((cfg1.win 0).blk t).view.emb (ix2 p k)) = V c main_v51 _
  refine congrArg (V c main_v51) (funext fun a => Fin.ext ?_)
  match a with
  | ⟨0, _⟩ => show win1_0.index t (0 : Fin 2) * 2000 + 1 * p.val = r.val; omega
  | ⟨1, _⟩ => show win1_0.index t (1 : Fin 2) * 32 + 1 * k.val = k.val; omega
theorem rd1_1 (c : Dev nD) (t : Fin cfg1.N) (p : Fin 2000) (k : Fin 32) (r : Fin 100000) (hr : r.val = t.val * 2000 + p.val) :
    iblk1 V c 1 t (ix2 p k) = V c main_v71 (ix2 r k) := by
  obtain ⟨e0, e1⟩ := idx1_1 t
  show V c main_v71 (((cfg1.win 1).blk t).view.emb (ix2 p k)) = V c main_v71 _
  refine congrArg (V c main_v71) (funext fun a => Fin.ext ?_)
  match a with
  | ⟨0, _⟩ => show win1_1.index t (0 : Fin 2) * 2000 + 1 * p.val = r.val; omega
  | ⟨1, _⟩ => show win1_1.index t (1 : Fin 2) * 32 + 1 * k.val = k.val; omega
theorem rd1_2 (c : Dev nD) (t : Fin cfg1.N) (p : Fin 2000) (k : Fin 32) (r : Fin 100000) (hr : r.val = t.val * 2000 + p.val) :
    iblk1 V c 2 t (ix2 p k) = V c main_v91 (ix2 r k) := by
  obtain ⟨e0, e1⟩ := idx1_2 t
  show V c main_v91 (((cfg1.win 2).blk t).view.emb (ix2 p k)) = V c main_v91 _
  refine congrArg (V c main_v91) (funext fun a => Fin.ext ?_)
  match a with
  | ⟨0, _⟩ => show win1_2.index t (0 : Fin 2) * 2000 + 1 * p.val = r.val; omega
  | ⟨1, _⟩ => show win1_2.index t (1 : Fin 2) * 32 + 1 * k.val = k.val; omega
theorem rd1_3 (c : Dev nD) (t : Fin cfg1.N) (p : Fin 2000) (k : Fin 32) (r : Fin 100000) (hr : r.val = t.val * 2000 + p.val) :
    iblk1 V c 3 t (ix2 p k) = V c main_arg3 (ix2 r k) := by
  obtain ⟨e0, e1⟩ := idx1_3 t
  show V c main_arg3 (((cfg1.win 3).blk t).view.emb (ix2 p k)) = V c main_arg3 _
  refine congrArg (V c main_arg3) (funext fun a => Fin.ext ?_)
  match a with
  | ⟨0, _⟩ => show win1_3.index t (0 : Fin 2) * 2000 + 1 * p.val = r.val; omega
  | ⟨1, _⟩ => show win1_3.index t (1 : Fin 2) * 32 + 1 * k.val = k.val; omega
theorem rd1_4 (c : Dev nD) (t : Fin cfg1.N) (a : Fin 64) (b : Fin 32) :
    iblk1 V c 4 t (ix2 a b) = V c main_arg10 (ix2 a b) := by
  obtain ⟨e0, e1⟩ := idx1_4 t
  show V c main_arg10 (((cfg1.win 4).blk t).view.emb (ix2 a b)) = V c main_arg10 _
  refine congrArg (V c main_arg10) (funext fun d => Fin.ext ?_)
  match d with
  | ⟨0, _⟩ => show win1_4.index t (0 : Fin 2) * 64 + 1 * a.val = a.val; omega
  | ⟨1, _⟩ => show win1_4.index t (1 : Fin 2) * 32 + 1 * b.val = b.val; omega
theorem rd1_5 (c : Dev nD) (t : Fin cfg1.N) (a : Fin 1) (b : Fin 32) :
    iblk1 V c 5 t (ix2 a b) = V c main_v92 (ix2 a b) := by
  obtain ⟨e0, e1⟩ := idx1_5 t
  show V c main_v92 (((cfg1.win 5).blk t).view.emb (ix2 a b)) = V c main_v92 _
  refine congrArg (V c main_v92) (funext fun d => Fin.ext ?_)
  match d with
  | ⟨0, _⟩ => show win1_5.index t (0 : Fin 2) * 1 + 1 * a.val = a.val; omega
  | ⟨1, _⟩ => show win1_5.index t (1 : Fin 2) * 32 + 1 * b.val = b.val; omega
theorem rd1_6 (c : Dev nD) (t : Fin cfg1.N) (a : Fin 64) (b : Fin 32) :
    iblk1 V c 6 t (ix2 a b) = V c main_arg12 (ix2 a b) := by
  obtain ⟨e0, e1⟩ := idx1_6 t
  show V c main_arg12 (((cfg1.win 6).blk t).view.emb (ix2 a b)) = V c main_arg12 _
  refine congrArg (V c main_arg12) (funext fun d => Fin.ext ?_)
  match d with
  | ⟨0, _⟩ => show win1_6.index t (0 : Fin 2) * 64 + 1 * a.val = a.val; omega
  | ⟨1, _⟩ => show win1_6.index t (1 : Fin 2) * 32 + 1 * b.val = b.val; omega
theorem rd1_7 (c : Dev nD) (t : Fin cfg1.N) (a : Fin 1) (b : Fin 32) :
    iblk1 V c 7 t (ix2 a b) = V c main_v93 (ix2 a b) := by
  obtain ⟨e0, e1⟩ := idx1_7 t
  show V c main_v93 (((cfg1.win 7).blk t).view.emb (ix2 a b)) = V c main_v93 _
  refine congrArg (V c main_v93) (funext fun d => Fin.ext ?_)
  match d with
  | ⟨0, _⟩ => show win1_7.index t (0 : Fin 2) * 1 + 1 * a.val = a.val; omega
  | ⟨1, _⟩ => show win1_7.index t (1 : Fin 2) * 32 + 1 * b.val = b.val; omega
theorem rd1_8 (c : Dev nD) (t : Fin cfg1.N) (a : Fin 64) (b : Fin 32) :
    iblk1 V c 8 t (ix2 a b) = V c main_arg14 (ix2 a b) := by
  obtain ⟨e0, e1⟩ := idx1_8 t
  show V c main_arg14 (((cfg1.win 8).blk t).view.emb (ix2 a b)) = V c main_arg14 _
  refine congrArg (V c main_arg14) (funext fun d => Fin.ext ?_)
  match d with
  | ⟨0, _⟩ => show win1_8.index t (0 : Fin 2) * 64 + 1 * a.val = a.val; omega
  | ⟨1, _⟩ => show win1_8.index t (1 : Fin 2) * 32 + 1 * b.val = b.val; omega
theorem rd1_9 (c : Dev nD) (t : Fin cfg1.N) (a : Fin 1) (b : Fin 32) :
    iblk1 V c 9 t (ix2 a b) = V c main_v94 (ix2 a b) := by
  obtain ⟨e0, e1⟩ := idx1_9 t
  show V c main_v94 (((cfg1.win 9).blk t).view.emb (ix2 a b)) = V c main_v94 _
  refine congrArg (V c main_v94) (funext fun d => Fin.ext ?_)
  match d with
  | ⟨0, _⟩ => show win1_9.index t (0 : Fin 2) * 1 + 1 * a.val = a.val; omega
  | ⟨1, _⟩ => show win1_9.index t (1 : Fin 2) * 32 + 1 * b.val = b.val; omega
theorem rd1_10 (c : Dev nD) (t : Fin cfg1.N) (a : Fin 32) (b : Fin 1) :
    iblk1 V c 10 t (ix2 a b) = V c main_arg16 (ix2 a b) := by
  obtain ⟨e0, e1⟩ := idx1_10 t
  show V c main_arg16 (((cfg1.win 10).blk t).view.emb (ix2 a b)) = V c main_arg16 _
  refine congrArg (V c main_arg16) (funext fun d => Fin.ext ?_)
  match d with
  | ⟨0, _⟩ => show win1_10.index t (0 : Fin 2) * 32 + 1 * a.val = a.val; omega
  | ⟨1, _⟩ => show win1_10.index t (1 : Fin 2) * 1 + 1 * b.val = b.val; omega
theorem rd1_11 (c : Dev nD) (t : Fin cfg1.N) (a : Fin 1) (b : Fin 1) :
    iblk1 V c 11 t (ix2 a b) = V c main_v95 (ix2 a b) := by
  obtain ⟨e0, e1⟩ := idx1_11 t
  show V c main_v95 (((cfg1.win 11).blk t).view.emb (ix2 a b)) = V c main_v95 _
  refine congrArg (V c main_v95) (funext fun d => Fin.ext ?_)
  match d with
  | ⟨0, _⟩ => show win1_11.index t (0 : Fin 2) * 1 + 1 * a.val = a.val; omega
  | ⟨1, _⟩ => show win1_11.index t (1 : Fin 2) * 1 + 1 * b.val = b.val; omega

/-! The cell's and the head's formulas depend on their rows, matrices and biases only through their values. -/
theorem hRow_congr {a a' b b' g g' h h' : Fin 32 → EReal} {Lz Lz' : Fin 64 → Fin 32 → EReal} {bz bz' : Fin 32 → EReal}
    {Lr Lr' : Fin 64 → Fin 32 → EReal} {br br' : Fin 32 → EReal} {Lh Lh' : Fin 64 → Fin 32 → EReal} {bh bh' : Fin 32 → EReal}
    (ha : ∀ k, a k = a' k) (hb : ∀ k, b k = b' k) (hg : ∀ k, g k = g' k) (hh : ∀ k, h k = h' k)
    (hLz : ∀ k j, Lz k j = Lz' k j) (hbz : ∀ j, bz j = bz' j) (hLr : ∀ k j, Lr k j = Lr' k j) (hbr : ∀ j, br j = br' j)
    (hLh : ∀ k j, Lh k j = Lh' k j) (hbh : ∀ j, bh j = bh' j) (j : Fin 32) :
    hRow a b g h Lz bz Lr br Lh bh j = hRow a' b' g' h' Lz' bz' Lr' br' Lh' bh' j := by
  obtain rfl : a = a' := funext ha
  obtain rfl : b = b' := funext hb
  obtain rfl : g = g' := funext hg
  obtain rfl : h = h' := funext hh
  obtain rfl : Lz = Lz' := funext fun k => funext (hLz k)
  obtain rfl : bz = bz' := funext hbz
  obtain rfl : Lr = Lr' := funext fun k => funext (hLr k)
  obtain rfl : br = br' := funext hbr
  obtain rfl : Lh = Lh' := funext fun k => funext (hLh k)
  obtain rfl : bh = bh' := funext hbh
  rfl
theorem yRow_congr {a a' b b' g g' h h' : Fin 32 → EReal} {Lz Lz' : Fin 64 → Fin 32 → EReal} {bz bz' : Fin 32 → EReal}
    {Lr Lr' : Fin 64 → Fin 32 → EReal} {br br' : Fin 32 → EReal} {Lh Lh' : Fin 64 → Fin 32 → EReal} {bh bh' : Fin 32 → EReal}
    {w w' : Fin 32 → EReal} {x x' : EReal}
    (ha : ∀ k, a k = a' k) (hb : ∀ k, b k = b' k) (hg : ∀ k, g k = g' k) (hh : ∀ k, h k = h' k)
    (hLz : ∀ k j, Lz k j = Lz' k j) (hbz : ∀ j, bz j = bz' j) (hLr : ∀ k j, Lr k j = Lr' k j) (hbr : ∀ j, br j = br' j)
    (hLh : ∀ k j, Lh k j = Lh' k j) (hbh : ∀ j, bh j = bh' j) (hw : ∀ j, w j = w' j) (hx : x = x') :
    yRow a b g h Lz bz Lr br Lh bh w x = yRow a' b' g' h' Lz' bz' Lr' br' Lh' bh' w' x' := by
  obtain rfl : a = a' := funext ha
  obtain rfl : b = b' := funext hb
  obtain rfl : g = g' := funext hg
  obtain rfl : h = h' := funext hh
  obtain rfl : Lz = Lz' := funext fun k => funext (hLz k)
  obtain rfl : bz = bz' := funext hbz
  obtain rfl : Lr = Lr' := funext fun k => funext (hLr k)
  obtain rfl : br = br' := funext hbr
  obtain rfl : Lh = Lh' := funext fun k => funext (hLh k)
  obtain rfl : bh = bh' := funext hbh
  obtain rfl : w = w' := funext hw
  subst hx
  rfl

/-- The new hidden state of the whole arrays: element (r, j) is the cell's formula on row r, at position j. -/
def hArr (GZ GR GH HP : (⟨S100000x32, .f32⟩ : BufTy).Contents (Elt Ideal)) (LZ : (⟨S64x32, .f32⟩ : BufTy).Contents (Elt Ideal)) (BZ : (⟨S1x32, .f32⟩ : BufTy).Contents (Elt Ideal))
    (LR : (⟨S64x32, .f32⟩ : BufTy).Contents (Elt Ideal)) (BR : (⟨S1x32, .f32⟩ : BufTy).Contents (Elt Ideal)) (LH : (⟨S64x32, .f32⟩ : BufTy).Contents (Elt Ideal)) (BH : (⟨S1x32, .f32⟩ : BufTy).Contents (Elt Ideal)) : (⟨S100000x32, .f32⟩ : BufTy).Contents (Elt Ideal) :=
  fun i => hRow (fun k => GZ (ix2 ⟨(i 0).val, (i 0).isLt⟩ k)) (fun k => GR (ix2 ⟨(i 0).val, (i 0).isLt⟩ k)) (fun k => GH (ix2 ⟨(i 0).val, (i 0).isLt⟩ k)) (fun k => HP (ix2 ⟨(i 0).val, (i 0).isLt⟩ k))
      (fun k j => LZ (ix2 k j)) (fun j => BZ (ix2 0 j)) (fun k j => LR (ix2 k j)) (fun j => BR (ix2 0 j))
      (fun k j => LH (ix2 k j)) (fun j => BH (ix2 0 j)) ⟨(i 1).val, (i 1).isLt⟩
/-- The read-out of the whole arrays: element (r, 0) is the head's formula on row r. -/
def yArr (GZ GR GH HP : (⟨S100000x32, .f32⟩ : BufTy).Contents (Elt Ideal)) (LZ : (⟨S64x32, .f32⟩ : BufTy).Contents (Elt Ideal)) (BZ : (⟨S1x32, .f32⟩ : BufTy).Contents (Elt Ideal))
    (LR : (⟨S64x32, .f32⟩ : BufTy).Contents (Elt Ideal)) (BR : (⟨S1x32, .f32⟩ : BufTy).Contents (Elt Ideal)) (LH : (⟨S64x32, .f32⟩ : BufTy).Contents (Elt Ideal)) (BH : (⟨S1x32, .f32⟩ : BufTy).Contents (Elt Ideal))
    (HW : (⟨S32x1, .f32⟩ : BufTy).Contents (Elt Ideal)) (HB : (⟨S1x1, .f32⟩ : BufTy).Contents (Elt Ideal)) : (⟨S100000x1, .f32⟩ : BufTy).Contents (Elt Ideal) :=
  fun i => yRow (fun k => GZ (ix2 ⟨(i 0).val, (i 0).isLt⟩ k)) (fun k => GR (ix2 ⟨(i 0).val, (i 0).isLt⟩ k)) (fun k => GH (ix2 ⟨(i 0).val, (i 0).isLt⟩ k)) (fun k => HP (ix2 ⟨(i 0).val, (i 0).isLt⟩ k))
      (fun k j => LZ (ix2 k j)) (fun j => BZ (ix2 0 j)) (fun k j => LR (ix2 k j)) (fun j => BR (ix2 0 j))
      (fun k j => LH (ix2 k j)) (fun j => BH (ix2 0 j)) (fun j => HW (ix2 j 0)) (HB (ix2 0 0))

/-- `hArr` at an index whose coordinates are named. -/
theorem hArr_at (GZ GR GH HP : (⟨S100000x32, .f32⟩ : BufTy).Contents (Elt Ideal)) (LZ : (⟨S64x32, .f32⟩ : BufTy).Contents (Elt Ideal)) (BZ : (⟨S1x32, .f32⟩ : BufTy).Contents (Elt Ideal))
    (LR : (⟨S64x32, .f32⟩ : BufTy).Contents (Elt Ideal)) (BR : (⟨S1x32, .f32⟩ : BufTy).Contents (Elt Ideal)) (LH : (⟨S64x32, .f32⟩ : BufTy).Contents (Elt Ideal)) (BH : (⟨S1x32, .f32⟩ : BufTy).Contents (Elt Ideal))
    (i : S100000x32.Idx) (r : Fin 100000) (jj : Fin 32) (h0 : (i 0).val = r.val) (h1 : (i 1).val = jj.val) :
    hArr GZ GR GH HP LZ BZ LR BR LH BH i = hRow (fun k => GZ (ix2 r k)) (fun k => GR (ix2 r k)) (fun k => GH (ix2 r k)) (fun k => HP (ix2 r k))
      (fun k j => LZ (ix2 k j)) (fun j => BZ (ix2 0 j)) (fun k j => LR (ix2 k j)) (fun j => BR (ix2 0 j))
      (fun k j => LH (ix2 k j)) (fun j => BH (ix2 0 j)) jj := by
  obtain rfl : r = ⟨(i 0).val, (i 0).isLt⟩ := Fin.ext h0.symm
  obtain rfl : jj = ⟨(i 1).val, (i 1).isLt⟩ := Fin.ext h1.symm
  rfl
/-- `yArr` at an index whose row is named. -/
theorem yArr_at (GZ GR GH HP : (⟨S100000x32, .f32⟩ : BufTy).Contents (Elt Ideal)) (LZ : (⟨S64x32, .f32⟩ : BufTy).Contents (Elt Ideal)) (BZ : (⟨S1x32, .f32⟩ : BufTy).Contents (Elt Ideal))
    (LR : (⟨S64x32, .f32⟩ : BufTy).Contents (Elt Ideal)) (BR : (⟨S1x32, .f32⟩ : BufTy).Contents (Elt Ideal)) (LH : (⟨S64x32, .f32⟩ : BufTy).Contents (Elt Ideal)) (BH : (⟨S1x32, .f32⟩ : BufTy).Contents (Elt Ideal))
    (HW : (⟨S32x1, .f32⟩ : BufTy).Contents (Elt Ideal)) (HB : (⟨S1x1, .f32⟩ : BufTy).Contents (Elt Ideal)) (i : S100000x1.Idx) (r : Fin 100000) (h0 : (i 0).val = r.val) :
    yArr GZ GR GH HP LZ BZ LR BR LH BH HW HB i = yRow (fun k => GZ (ix2 r k)) (fun k => GR (ix2 r k)) (fun k => GH (ix2 r k)) (fun k => HP (ix2 r k))
      (fun k j => LZ (ix2 k j)) (fun j => BZ (ix2 0 j)) (fun k j => LR (ix2 k j)) (fun j => BR (ix2 0 j))
      (fun k j => LH (ix2 k j)) (fun j => BH (ix2 0 j)) (fun j => HW (ix2 j 0)) (HB (ix2 0 0)) := by
  obtain rfl : r = ⟨(i 0).val, (i 0).isLt⟩ := Fin.ext h0.symm
  rfl

/-! ### The new hidden state (output window 13) -/

/-- The body's new state of point t's blocks, at (p, j), is the whole arrays' at the element of the output's block. -/
theorem blk13_at (c : Dev nD) (t : Fin cfg1.N) (p : Fin 2000) (j : Fin 32) :
    k1_pay1 (F := Ideal) (iblk1 V c 3 t) (k1_pay3 (F := Ideal) (iblk1 V c 0 t) (iblk1 V c 3 t) (iblk1 V c 4 t) (iblk1 V c 5 t))
        (k1_pay4 (F := Ideal) (iblk1 V c 1 t) (iblk1 V c 2 t) (iblk1 V c 3 t) (iblk1 V c 6 t) (iblk1 V c 7 t) (iblk1 V c 8 t)) (k1_pay5 (F := Ideal) (iblk1 V c 9 t)) (ix2 p j)
      = hArr (V c main_v51) (V c main_v71) (V c main_v91) (V c main_arg3) (V c main_arg10) (V c main_v92) (V c main_arg12) (V c main_v93) (V c main_arg14) (V c main_v94)
          (((cfg1.win 13).blk t).view.emb (ix2 p j)) := by
  have hN : cfg1.N = 50 := N_1
  have ht : t.val < 50 := hN ▸ t.isLt
  have hr : t.val * 2000 + p.val < 100000 := by have := p.isLt; omega
  obtain ⟨e0, e1⟩ := idx1_13 t
  refine (pay_h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p j).trans ?_
  refine Eq.trans ?_ (hArr_at _ _ _ _ _ _ _ _ _ _ (((cfg1.win 13).blk t).view.emb (ix2 p j)) ⟨t.val * 2000 + p.val, hr⟩ j ?_ ?_).symm
  · exact hRow_congr (fun k => rd1_0 V c t p k _ rfl) (fun k => rd1_1 V c t p k _ rfl) (fun k => rd1_2 V c t p k _ rfl)
      (fun k => rd1_3 V c t p k _ rfl) (fun k j => rd1_4 V c t k j) (fun j => rd1_5 V c t 0 j) (fun k j => rd1_6 V c t k j)
      (fun j => rd1_7 V c t 0 j) (fun k j => rd1_8 V c t k j) (fun j => rd1_9 V c t 0 j) j
  · show win1_13.index t (0 : Fin 2) * 2000 + 1 * p.val = t.val * 2000 + p.val; omega
  · show win1_13.index t (1 : Fin 2) * 32 + 1 * j.val = j.val; omega

/-- What point t writes back to the hidden state is block t of the whole arrays' new state. -/
theorem flushed13_eq (c : Dev nD) (t : Fin cfg1.N) :
    (dat1 V c).flushed 13 t = ((cfg1.win 13).blk t).view.read (Elt Ideal)
      (hArr (V c main_v51) (V c main_v71) (V c main_v91) (V c main_arg3) (V c main_arg10) (V c main_v92) (V c main_arg12) (V c main_v93) (V c main_arg14) (V c main_v94)) := by
  show (cfg1.win 13).cut (grid1.coords t) ((dat1 V c).after 13 t) = _
  rw [after1_13]
  unfold out1_13
  rw [View.canon_unit_zero hz]
  simp only [View.ld_unit_zero (S := S2000x32) hz, View.ld_unit_zero (S := S64x32) hz, View.ld_unit_zero (S := S1x32) hz]
  funext j
  have hj : (ix2 (⟨(j 0).val, (j 0).isLt⟩ : Fin 2000) (⟨(j 1).val, (j 1).isLt⟩ : Fin 32) : S2000x32.Idx) = j := by
    funext a; match a with | ⟨0, _⟩ => rfl | ⟨1, _⟩ => rfl
  rw [← hj]
  exact blk13_at V c t _ _

/-- An index of the hidden-state array is in point t's block iff each coordinate is in the block's range on its axis. -/
theorem mem_blk13 (t : Fin cfg1.N) (i : S100000x32.Idx) :
    i ∈ ((cfg1.win 13).blk t).view.set ↔ ∀ a : Fin 2, win1_13.index t a * S2000x32.size a ≤ (i a).val
      ∧ (i a).val < win1_13.index t a * S2000x32.size a + S2000x32.size a := by
  show i ∈ ((View.whole main_v96_1).slice (win1_13.rect t)).set ↔ _
  rw [View.set_slice_whole, Rect.mem_set_unit]
  exact Iff.rfl

/-- Every row is in some point's block: row r in block r / 2000. -/
theorem cover13 (i : S100000x32.Idx) :
    ∃ t : Fin cfg1.N, (cfg1.win 13).flush t = true ∧ i ∈ ((cfg1.win 13).blk t).view.set := by
  have hN : cfg1.N = 50 := N_1
  have hi0 : (i 0).val < 100000 := (i 0).isLt
  have hi1 : (i 1).val < 32 := (i 1).isLt
  have ht : (i 0).val / 2000 < cfg1.N := by rw [hN]; omega
  obtain ⟨e0, e1⟩ := idx1_13 ⟨(i 0).val / 2000, ht⟩
  refine ⟨⟨(i 0).val / 2000, ht⟩, flush1_13 _, ?_⟩
  rw [mem_blk13]
  intro a
  match a with
  | ⟨0, _⟩ =>
    show win1_13.index ⟨(i 0).val / 2000, ht⟩ (0 : Fin 2) * 2000 ≤ (i 0).val
      ∧ (i 0).val < win1_13.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_13.index ⟨(i 0).val / 2000, ht⟩ (1 : Fin 2) * 32 ≤ (i 1).val
      ∧ (i 1).val < win1_13.index ⟨(i 0).val / 2000, ht⟩ (1 : Fin 2) * 32 + 32
    rw [e1]; omega

/-- The hidden-state array after the second call is the cell's formula, row by row, of the arrays it found. -/
theorem arr1_h (c : Dev nD) : (dat1 V c).arrAt 13 cfg1.N
    = hArr (V c main_v51) (V c main_v71) (V c main_v91) (V c main_arg3) (V c main_arg10) (V c main_v92) (V c main_arg12) (V c main_v93) (V c main_arg14) (V c main_v94) :=
  (dat1 V c).arrAt_eq_of_cover 13 (hArr (V c main_v51) (V c main_v71) (V c main_v91) (V c main_arg3) (V c main_arg10) (V c main_v92) (V c main_arg12) (V c main_v93) (V c main_arg14) (V c main_v94))
    (fun t _ => flushed13_eq V c t) cover13

/-! ### The read-out (output window 12) -/

/-- The body's read-out of point t's blocks, at row p, is the whole arrays' at the element of the output's block. -/
theorem blk12_at (c : Dev nD) (t : Fin cfg1.N) (p : Fin 2000) :
    k1_pay2 (F := Ideal) (iblk1 V c 3 t) (k1_pay3 (F := Ideal) (iblk1 V c 0 t) (iblk1 V c 3 t) (iblk1 V c 4 t) (iblk1 V c 5 t))
        (k1_pay4 (F := Ideal) (iblk1 V c 1 t) (iblk1 V c 2 t) (iblk1 V c 3 t) (iblk1 V c 6 t) (iblk1 V c 7 t) (iblk1 V c 8 t)) (k1_pay5 (F := Ideal) (iblk1 V c 9 t)) (iblk1 V c 10 t) (iblk1 V c 11 t) (ix2 p 0)
      = yArr (V c main_v51) (V c main_v71) (V c main_v91) (V c main_arg3) (V c main_arg10) (V c main_v92) (V c main_arg12) (V c main_v93) (V c main_arg14) (V c main_v94) (V c main_arg16) (V c main_v95)
          (((cfg1.win 12).blk t).view.emb (ix2 p 0)) := by
  have hN : cfg1.N = 50 := N_1
  have ht : t.val < 50 := hN ▸ t.isLt
  have hr : t.val * 2000 + p.val < 100000 := by have := p.isLt; omega
  obtain ⟨e0, e1⟩ := idx1_12 t
  refine (pay_y (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p).trans ?_
  refine Eq.trans ?_ (yArr_at _ _ _ _ _ _ _ _ _ _ _ _ (((cfg1.win 12).blk t).view.emb (ix2 p 0)) ⟨t.val * 2000 + p.val, hr⟩ ?_).symm
  · exact yRow_congr (fun k => rd1_0 V c t p k _ rfl) (fun k => rd1_1 V c t p k _ rfl) (fun k => rd1_2 V c t p k _ rfl)
      (fun k => rd1_3 V c t p k _ rfl) (fun k j => rd1_4 V c t k j) (fun j => rd1_5 V c t 0 j) (fun k j => rd1_6 V c t k j)
      (fun j => rd1_7 V c t 0 j) (fun k j => rd1_8 V c t k j) (fun j => rd1_9 V c t 0 j) (fun j => rd1_10 V c t j 0)
      (rd1_11 V c t 0 0)
  · show win1_12.index t (0 : Fin 2) * 2000 + 1 * p.val = t.val * 2000 + p.val; omega

/-- What point t writes back to the read-out is block t of the whole arrays' read-out. -/
theorem flushed12_eq (c : Dev nD) (t : Fin cfg1.N) :
    (dat1 V c).flushed 12 t = ((cfg1.win 12).blk t).view.read (Elt Ideal)
      (yArr (V c main_v51) (V c main_v71) (V c main_v91) (V c main_arg3) (V c main_arg10) (V c main_v92) (V c main_arg12) (V c main_v93) (V c main_arg14) (V c main_v94) (V c main_arg16) (V c main_v95)) := by
  show (cfg1.win 12).cut (grid1.coords t) ((dat1 V c).after 12 t) = _
  rw [after1_12]
  unfold out1_12
  rw [View.canon_unit_zero hz]
  simp only [View.ld_unit_zero (S := S2000x32) hz, View.ld_unit_zero (S := S64x32) hz, View.ld_unit_zero (S := S1x32) hz,
    View.ld_unit_zero (S := S32x1) hz, View.ld_unit_zero (S := S1x1) hz]
  funext j
  have hj : (ix2 (⟨(j 0).val, (j 0).isLt⟩ : Fin 2000) (0 : Fin 1) : S2000x1.Idx) = j := by
    funext a
    match a with
    | ⟨0, _⟩ => rfl
    | ⟨1, _⟩ => exact Fin.ext (by have h1 : (j 1).val < 1 := (j 1).isLt; show 0 = (j 1).val; omega)
  rw [← hj]
  exact blk12_at V c t _

/-- An index of the read-out array is in point t's block iff each coordinate is in the block's range on its axis. -/
theorem mem_blk12 (t : Fin cfg1.N) (i : S100000x1.Idx) :
    i ∈ ((cfg1.win 12).blk t).view.set ↔ ∀ a : Fin 2, win1_12.index t a * S2000x1.size a ≤ (i a).val
      ∧ (i a).val < win1_12.index t a * S2000x1.size a + S2000x1.size a := by
  show i ∈ ((View.whole main_v96_0).slice (win1_12.rect t)).set ↔ _
  rw [View.set_slice_whole, Rect.mem_set_unit]
  exact Iff.rfl

/-- Every row is in some point's block: row r in block r / 2000. -/
theorem cover12 (i : S100000x1.Idx) :
    ∃ t : Fin cfg1.N, (cfg1.win 12).flush t = true ∧ i ∈ ((cfg1.win 12).blk t).view.set := by
  have hN : cfg1.N = 50 := N_1
  have hi0 : (i 0).val < 100000 := (i 0).isLt
  have hi1 : (i 1).val < 1 := (i 1).isLt
  have ht : (i 0).val / 2000 < cfg1.N := by rw [hN]; omega
  obtain ⟨e0, e1⟩ := idx1_12 ⟨(i 0).val / 2000, ht⟩
  refine ⟨⟨(i 0).val / 2000, ht⟩, flush1_12 _, ?_⟩
  rw [mem_blk12]
  intro a
  match a with
  | ⟨0, _⟩ =>
    show win1_12.index ⟨(i 0).val / 2000, ht⟩ (0 : Fin 2) * 2000 ≤ (i 0).val
      ∧ (i 0).val < win1_12.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_12.index ⟨(i 0).val / 2000, ht⟩ (1 : Fin 2) * 1 ≤ (i 1).val
      ∧ (i 1).val < win1_12.index ⟨(i 0).val / 2000, ht⟩ (1 : Fin 2) * 1 + 1
    rw [e1]; omega

/-- The read-out array after the second call is the head's formula, row by row, of the arrays it found. -/
theorem arr1_y (c : Dev nD) : (dat1 V c).arrAt 12 cfg1.N
    = yArr (V c main_v51) (V c main_v71) (V c main_v91) (V c main_arg3) (V c main_arg10) (V c main_v92) (V c main_arg12) (V c main_v93) (V c main_arg14) (V c main_v94) (V c main_arg16) (V c main_v95) :=
  (dat1 V c).arrAt_eq_of_cover 12 (yArr (V c main_v51) (V c main_v71) (V c main_v91) (V c main_arg3) (V c main_arg10) (V c main_v92) (V c main_arg12) (V c main_v93) (V c main_arg14) (V c main_v94) (V c main_arg16) (V c main_v95))
    (fun t _ => flushed12_eq V c t) cover12

end Cert.KernelIdeal.Blocks

end
-- ==== Proof.SliceProd.lean ====
/-
  The product against three matrices set side by side, cut back into its three column blocks.

  With [A | B | D] the 256 × 96 matrix whose columns 0–31, 32–63, 64–95 are those of the 256 × 32 matrices A, B, D, element
  (r, q) of x · [A | B | D] is the sum over k of x(r, k) times column q of the joined matrix at row k, and that entry is
  A(k, q), B(k, q − 32) or D(k, q − 64) according to the block q falls in.  So columns 0–31 of the product are x · A, columns
  32–63 are x · B and columns 64–95 are x · D, each as the plain finite sum over the joined axis.  A vector of length 32
  recast as a 1 × 32 row keeps its entries, and a vector of length 1 recast as a 1 × 1 array keeps its entry.
-/
import proofs.«114561_j77266461655170_1_alg».proof.Proof.KernelIdeal.Blocks
import proofs.«114561_j77266461655170_1_alg».proof.Proof.KerPay
import proofs.«114561_j77266461655170_1_alg».proof.Proof.Gen.ReferenceIdeal.Read
import Idealize.ShloMosaic.Lib.Pipeline.Value
import Idealize.ShloMosaic.Lib.ValueIdx

noncomputable section

namespace Cert.SliceProd

open Idealize.ShloMosaic Idealize.SL.Sem
open Cert.KernelIdeal Cert.KernelIdeal.Gen Cert.KernelIdeal.Blocks Cert.KerPay
open Idealize.ShloMosaic.ValueIdx
open Cert.ReferenceIdeal.Read (val_main_v4 val_main_v4_apply lidx_main_v4 ridx_main_v4 val_main_v59 val_main_v59_apply
  lidx_main_v59 ridx_main_v59 val_main_v114 val_main_v114_apply lidx_main_v114 ridx_main_v114)
open scoped BigOperators

/-! ## The three column blocks of the product -/

/-- Columns 0–31 of x · [A | B | D] are x · A. -/
theorem slice_z (x : (⟨S100000x256, .f32⟩ : BufTy).Contents (Elt Ideal)) (a b d : (⟨S256x32, .f32⟩ : BufTy).Contents (Elt Ideal)) :
    extractStridedSlice S100000x32 ![0, 0] (prodArr x (concatenate S256x96 1 [⟨S256x32, a⟩, ⟨S256x32, b⟩, ⟨S256x32, d⟩] concatenates_S256x32_S256x32_S256x32_S256x96_d1)) slices_S100000x96_S100000x32_0_0
      = val_main_v4 (F := Ideal) x a := by
  funext i
  rw [val_main_v4_apply]
  have h0 : (i 0).val < 100000 := (i 0).isLt
  have h1 : (i 1).val < 32 := (i 1).isLt
  refine (extractStridedSlice_apply ![0, 0] _ slices_S100000x96_S100000x32_0_0 i
    (ix2 (⟨(i 0).val, h0⟩ : Fin 100000) (⟨(i 1).val, by omega⟩ : Fin 96)) (fun c => match c with
      | ⟨0, _⟩ => by show (i 0).val = 0 + (i 0).val; omega
      | ⟨1, _⟩ => by show (i 1).val = 0 + (i 1).val; omega)).trans ?_
  unfold prodArr
  refine Finset.sum_congr rfl fun k _ => ?_
  refine congr (congrArg HMul.hMul ?_) ?_
  · refine congrArg x (funext fun c => Fin.ext ?_)
    match c with
    | ⟨0, _⟩ => rfl
    | ⟨1, _⟩ => rfl
  · refine (cat3_apply a b d k _).trans ?_
    refine (dif_pos h1).trans ?_
    refine congrArg a (funext fun c => Fin.ext ?_)
    match c with
    | ⟨0, _⟩ => rfl
    | ⟨1, _⟩ => rfl

/-- Columns 32–63 of x · [A | B | D] are x · B. -/
theorem slice_r (x : (⟨S100000x256, .f32⟩ : BufTy).Contents (Elt Ideal)) (a b d : (⟨S256x32, .f32⟩ : BufTy).Contents (Elt Ideal)) :
    extractStridedSlice S100000x32 ![0, 32] (prodArr x (concatenate S256x96 1 [⟨S256x32, a⟩, ⟨S256x32, b⟩, ⟨S256x32, d⟩] concatenates_S256x32_S256x32_S256x32_S256x96_d1)) slices_S100000x96_S100000x32_0_32
      = val_main_v59 (F := Ideal) x b := by
  funext i
  rw [val_main_v59_apply]
  have h0 : (i 0).val < 100000 := (i 0).isLt
  have h1 : (i 1).val < 32 := (i 1).isLt
  refine (extractStridedSlice_apply ![0, 32] _ slices_S100000x96_S100000x32_0_32 i
    (ix2 (⟨(i 0).val, h0⟩ : Fin 100000) (⟨(i 1).val + 32, by omega⟩ : Fin 96)) (fun c => match c with
      | ⟨0, _⟩ => by show (i 0).val = 0 + (i 0).val; omega
      | ⟨1, _⟩ => by show (i 1).val + 32 = 32 + (i 1).val; omega)).trans ?_
  unfold prodArr
  refine Finset.sum_congr rfl fun k _ => ?_
  refine congr (congrArg HMul.hMul ?_) ?_
  · refine congrArg x (funext fun c => Fin.ext ?_)
    match c with
    | ⟨0, _⟩ => rfl
    | ⟨1, _⟩ => rfl
  · refine (cat3_apply a b d k _).trans ?_
    refine (dif_neg (show ¬((i 1).val + 32 < 32) by omega)).trans ?_
    refine (dif_pos (show (i 1).val + 32 < 64 by omega)).trans ?_
    refine congrArg b (funext fun c => Fin.ext ?_)
    match c with
    | ⟨0, _⟩ => rfl
    | ⟨1, _⟩ => show (i 1).val + 32 - 32 = (i 1).val; omega

/-- Columns 64–95 of x · [A | B | D] are x · D. -/
theorem slice_h (x : (⟨S100000x256, .f32⟩ : BufTy).Contents (Elt Ideal)) (a b d : (⟨S256x32, .f32⟩ : BufTy).Contents (Elt Ideal)) :
    extractStridedSlice S100000x32 ![0, 64] (prodArr x (concatenate S256x96 1 [⟨S256x32, a⟩, ⟨S256x32, b⟩, ⟨S256x32, d⟩] concatenates_S256x32_S256x32_S256x32_S256x96_d1)) slices_S100000x96_S100000x32_0_64
      = val_main_v114 (F := Ideal) x d := by
  funext i
  rw [val_main_v114_apply]
  have h0 : (i 0).val < 100000 := (i 0).isLt
  have h1 : (i 1).val < 32 := (i 1).isLt
  refine (extractStridedSlice_apply ![0, 64] _ slices_S100000x96_S100000x32_0_64 i
    (ix2 (⟨(i 0).val, h0⟩ : Fin 100000) (⟨(i 1).val + 64, by omega⟩ : Fin 96)) (fun c => match c with
      | ⟨0, _⟩ => by show (i 0).val = 0 + (i 0).val; omega
      | ⟨1, _⟩ => by show (i 1).val + 64 = 64 + (i 1).val; omega)).trans ?_
  unfold prodArr
  refine Finset.sum_congr rfl fun k _ => ?_
  refine congr (congrArg HMul.hMul ?_) ?_
  · refine congrArg x (funext fun c => Fin.ext ?_)
    match c with
    | ⟨0, _⟩ => rfl
    | ⟨1, _⟩ => rfl
  · refine (cat3_apply a b d k _).trans ?_
    refine (dif_neg (show ¬((i 1).val + 64 < 32) by omega)).trans ?_
    refine (dif_neg (show ¬((i 1).val + 64 < 64) by omega)).trans ?_
    refine congrArg d (funext fun c => Fin.ext ?_)
    match c with
    | ⟨0, _⟩ => rfl
    | ⟨1, _⟩ => show (i 1).val + 64 - 64 = (i 1).val; omega

/-! ## Recast biases -/

/-- A vector of length 32 recast as a 1 × 32 row, at column j, is its entry j. -/
theorem bias_row (x : (⟨S32, .f32⟩ : BufTy).Contents (Elt Ideal)) (j : Fin 32) :
    shapeCast S1x32 x shapeCasts_S32_S1x32 (ix2 0 j) = x (ix1 j) :=
  shapeCast_apply x shapeCasts_S32_S1x32 (ix2 0 j) (ix1 j)
    (by rw [Shape.rowMajor_val_two, Shape.rowMajor_val_one]; show j.val = 0 * 32 + j.val; omega)

/-- A vector of length 1 recast as a 1 × 1 array is its entry. -/
theorem bias_one (x : (⟨S1, .f32⟩ : BufTy).Contents (Elt Ideal)) :
    shapeCast S1x1 x shapeCasts_S1_S1x1 (ix2 0 0) = x (ix1 0) :=
  shapeCast_apply x shapeCasts_S1_S1x1 (ix2 0 0) (ix1 0)
    (by rw [Shape.rowMajor_val_two, Shape.rowMajor_val_one]; rfl)

end Cert.SliceProd

end
-- ==== Proof.Bridge.lean ====
/-
  The idealized kernel's host operations against the reference's, up to the entry of the second pipelined call.

  (1) The first five operations leave the two rows of the edge list (sources, targets) and the three input weight matrices joined
      side by side, [W_z | W_r | W_h].
  (2) The first call leaves x · [W_z | W_r | W_h]; its column blocks 0–31, 32–63, 64–95 are x · W_z, x · W_r, x · W_h — the
      sum over the contracted axis of a row of x against a column of the joined matrix is the sum against the matching column of
      the matching block.
  (3) The hundred and five operations between the calls are, gate by gate, the SAME chain of host operations the reference
      applies to its own product x · W_gate (degree by a scattered sum of the edge weights plus one, its reciprocal square root,
      the edge norm by two gathers, the gathered rows scaled and scattered, the self term, the bias); the kernel computes the
      degree normalisation once where the reference repeats it, which as a term is the same expression. So each gate's array at
      the second call's entry IS the reference's graph-convolution stage of the arguments.
  (4) The four biases enter the second call reshaped to rows: entry (0, j) of the row is entry j of the bias.
-/
import proofs.«114561_j77266461655170_1_alg».proof.Proof.KernelIdeal.Run
import proofs.«114561_j77266461655170_1_alg».proof.Proof.KernelIdeal.Blocks
import proofs.«114561_j77266461655170_1_alg».proof.Proof.KerPay
import proofs.«114561_j77266461655170_1_alg».proof.Proof.SliceProd
import proofs.«114561_j77266461655170_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Body Cert.KernelIdeal.Blocks
open Idealize.ShloMosaic Idealize.ShloMosaic.TcCoe Idealize.SL.Sem Idealize.ShloMosaic.StableHlo
open Idealize.ShloMosaic.ValueIdx
open Cert.ReferenceIdeal.Read (val_main_v0 val_main_v1 val_main_v2 val_main_v3 val_main_v4 val_main_v4_apply val_main_v47 val_main_v59 val_main_v59_apply val_main_v102 val_main_v114 val_main_v114_apply val_main_v157)

variable (m : (ℓ : Loc nD τ sig) → Buf (Elt Ideal) ℓ) (ρ : Dev nD → PrngReg) (c : Dev nD)

/-! ## (1) After the first five operations -/

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl
theorem W1_v4 : W1 m ρ c (Proc.devRef .tc main_v4)
    = concatenate S256x96 1 [⟨S256x32, m ((c : Thread nD τ).loc main_arg4)⟩, ⟨S256x32, m ((c : Thread nD τ).loc main_arg6)⟩,
        ⟨S256x32, m ((c : Thread nD τ).loc main_arg8)⟩] concatenates_S256x32_S256x32_S256x32_S256x96_d1 := by
  show StableHlo.after hostOps0 (W0 m ρ c) (Proc.devRef .tc main_v4) = _
  after_results
  rfl

theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)

/-! ## (2) The first call's product and its three column blocks -/

theorem W2_v5 : W2 m ρ c (Proc.devRef .tc main_v5)
    = prodArr (m ((c : Thread nD τ).loc main_arg0))
        (concatenate S256x96 1 [⟨S256x32, m ((c : Thread nD τ).loc main_arg4)⟩, ⟨S256x32, m ((c : Thread nD τ).loc main_arg6)⟩,
          ⟨S256x32, m ((c : Thread nD τ).loc main_arg8)⟩] concatenates_S256x32_S256x32_S256x32_S256x96_d1) := by
  refine (W2_arr m ρ c 2).trans ((arr0 (V1 m ρ) c).trans ?_)
  rw [show V1 m ρ c main_arg0 = m ((c : Thread nD τ).loc main_arg0) from W1_main_arg0 m ρ c,
    show V1 m ρ c main_v4 = _ from W1_v4 m ρ c]

/-! ## (3) Each gate's array at the second call's entry is the reference's graph-convolution stage -/

set_option maxHeartbeats 4000000 in
theorem gate_z : W3 m ρ c (Proc.devRef .tc main_v51)
    = val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v51) = _
  after_results_simp
  rw [W2_v5 m ρ c, Cert.SliceProd.slice_z, W2_v1 m ρ c, W2_v3 m ρ c, W2_main_arg2 m ρ c, W2_main_arg5 m ρ c]
  rfl

set_option maxHeartbeats 4000000 in
theorem gate_r : W3 m ρ c (Proc.devRef .tc main_v71)
    = val_main_v102 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  show StableHlo.after hostOps1 (W2 m ρ c) (Proc.devRef .tc main_v71) = _
  after_results_simp
  rw [W2_v5 m ρ c, Cert.SliceProd.slice_r, W2_v1 m ρ c, W2_v3 m ρ c, W2_main_arg2 m ρ c, W2_main_arg7 m ρ c]
  rfl

set_option maxHeartbeats 4000000 in
theorem gate_h : W3 m ρ c (Proc.devRef .tc main_v91)
    = val_main_v157 (F := Ideal) (m ((c : Thread nD τ).loc main_arg0)) (m ((c : Thread nD τ).loc main_arg1)) (m ((c : Thread nD τ).loc main_arg2)) (m ((c : Thread nD τ).loc main_arg8)) (m ((c : Thread nD τ).loc main_arg9)) := by
  show StableHlo.after hostOps1 (W2 m ρ c) (Proc.devRef .tc main_v91) = _
  after_results_simp
  rw [W2_v5 m ρ c, Cert.SliceProd.slice_h, W2_v1 m ρ c, W2_v3 m ρ c, W2_main_arg2 m ρ c, W2_main_arg9 m ρ c]
  rfl

/-! ## (4) The biases reshaped to rows -/

theorem W3_v92 : W3 m ρ c (Proc.devRef .tc main_v92) = shapeCast S1x32 (m ((c : Thread nD τ).loc main_arg11)) shapeCasts_S32_S1x32 := by
  show StableHlo.after hostOps1 (W2 m ρ c) (Proc.devRef .tc main_v92) = _
  after_results_simp
  rw [W2_main_arg11 m ρ c]
  rfl

theorem W3_v93 : W3 m ρ c (Proc.devRef .tc main_v93) = shapeCast S1x32 (m ((c : Thread nD τ).loc main_arg13)) shapeCasts_S32_S1x32 := by
  show StableHlo.after hostOps1 (W2 m ρ c) (Proc.devRef .tc main_v93) = _
  after_results_simp
  rw [W2_main_arg13 m ρ c]
  rfl

theorem W3_v94 : W3 m ρ c (Proc.devRef .tc main_v94) = shapeCast S1x32 (m ((c : Thread nD τ).loc main_arg15)) shapeCasts_S32_S1x32 := by
  show StableHlo.after hostOps1 (W2 m ρ c) (Proc.devRef .tc main_v94) = _
  after_results_simp
  rw [W2_main_arg15 m ρ c]
  rfl

theorem W3_v95 : W3 m ρ c (Proc.devRef .tc main_v95) = shapeCast S1x1 (m ((c : Thread nD τ).loc main_arg17)) shapeCasts_S1_S1x1 := by
  show StableHlo.after hostOps1 (W2 m ρ c) (Proc.devRef .tc main_v95) = _
  after_results_simp
  rw [W2_main_arg17 m ρ c]
  rfl

end Cert.Bridge

end
-- ==== Proof.RefHead.lean ====
/-
  The reference's recurrent cell and scalar head read at an index.

  The three graph-convolution stages are treated as whole arrays of shape 100000 × 32.  One row of the reference's
  update gate, reset gate, candidate state, new hidden state and read-out is then the corresponding function of
  Cert.GruSpec applied to the rows of those arrays, of the previous hidden state, and to the weights.
-/
import proofs.«114561_j77266461655170_1_alg».proof.Proof.Gen.ReferenceIdeal.Read
import proofs.«114561_j77266461655170_1_alg».proof.Proof.GruSpec

noncomputable section

namespace Cert.RefHead

open Cert.ReferenceIdeal Cert.ReferenceIdeal.Gen Cert.ReferenceIdeal.Read Idealize.ShloMosaic Idealize.ShloMosaic.StableHlo
open Idealize.ShloMosaic.ValueIdx Cert.GruSpec
open scoped BigOperators

/-- Two 100000 × 32 arrays joined along the second axis, read at row r and column k: the joined row at k. -/
theorem cat_read (A B : (⟨S100000x32, .f32⟩ : BufTy).Contents (Elt Ideal)) (r : Fin 100000) (k : Fin 64) :
    concatenate S100000x64 1 [⟨S100000x32, A⟩, ⟨S100000x32, B⟩] concatenates_S100000x32_S100000x32_S100000x64_d1 (ix2 r k)
      = cat (fun q => A (ix2 r q)) (fun q => B (ix2 r q)) k := by
  unfold cat
  split
  · next h =>
    exact concatenate_pair_apply_left (1 : Fin S100000x64.rank) A B _ (ix2 r k) rfl (ix2 r ⟨k.val, h⟩)
      (fun b => match b with | ⟨0, _⟩ => rfl | ⟨1, _⟩ => rfl)
  · next h =>
    exact concatenate_pair_apply_right (1 : Fin S100000x64.rank) A B _ (ix2 r k) rfl rfl
      (ix2 r ⟨k.val - 32, by have := k.isLt; omega⟩)
      (fun b hb => match b, hb with | ⟨0, _⟩, _ => rfl | ⟨1, _⟩, hb => absurd rfl hb)
      (by show (k.val - 32) + 32 = k.val; omega)

/-- The operand indices of a 64-term product at row r, column j: the left operand at (r, k), the right at (k, j). -/
theorem lidx49 (r : Fin 100000) (j : Fin 32) (k : Fin 64) : lidx_main_v49 (ix2 r j) k = ix2 r k := by
  funext a; match a with | ⟨0, _⟩ => rfl | ⟨1, _⟩ => rfl
theorem ridx49 (r : Fin 100000) (j : Fin 32) (k : Fin 64) : ridx_main_v49 (ix2 r j) k = ix2 k j := by
  funext a; match a with | ⟨0, _⟩ => rfl | ⟨1, _⟩ => rfl
/-- A bias broadcast along the rows is read at the column. -/
theorem bidx51 (r : Fin 100000) (j : Fin 32) : idx_main_v50 (idx_main_v51 (ix2 r j)) = ix1 j := by
  funext a; match a with | ⟨0, _⟩ => rfl

theorem lidx104 (r : Fin 100000) (j : Fin 32) (k : Fin 64) : lidx_main_v104 (ix2 r j) k = ix2 r k := by
  funext a; match a with | ⟨0, _⟩ => rfl | ⟨1, _⟩ => rfl
theorem ridx104 (r : Fin 100000) (j : Fin 32) (k : Fin 64) : ridx_main_v104 (ix2 r j) k = ix2 k j := by
  funext a; match a with | ⟨0, _⟩ => rfl | ⟨1, _⟩ => rfl
theorem bidx106 (r : Fin 100000) (j : Fin 32) : idx_main_v105 (idx_main_v106 (ix2 r j)) = ix1 j := by
  funext a; match a with | ⟨0, _⟩ => rfl
theorem lidx160 (r : Fin 100000) (j : Fin 32) (k : Fin 64) : lidx_main_v160 (ix2 r j) k = ix2 r k := by
  funext a; match a with | ⟨0, _⟩ => rfl | ⟨1, _⟩ => rfl
theorem ridx160 (r : Fin 100000) (j : Fin 32) (k : Fin 64) : ridx_main_v160 (ix2 r j) k = ix2 k j := by
  funext a; match a with | ⟨0, _⟩ => rfl | ⟨1, _⟩ => rfl
theorem bidx162 (r : Fin 100000) (j : Fin 32) : idx_main_v161 (idx_main_v162 (ix2 r j)) = ix1 j := by
  funext a; match a with | ⟨0, _⟩ => rfl
/-- The operand indices of the read-out's 32-term product at row r: the left operand at (r, k), the right at (k, 0). -/
theorem lidx171 (r : Fin 100000) (k : Fin 32) : lidx_main_v171 (ix2 r (0 : Fin 1)) k = ix2 r k := by
  funext a; match a with | ⟨0, _⟩ => rfl | ⟨1, _⟩ => rfl
theorem ridx171 (r : Fin 100000) (k : Fin 32) : ridx_main_v171 (ix2 r (0 : Fin 1)) k = ix2 k (0 : Fin 1) := by
  funext a; match a with | ⟨0, _⟩ => rfl | ⟨1, _⟩ => rfl
theorem bidx173 (r : Fin 100000) : idx_main_v172 (idx_main_v173 (ix2 r (0 : Fin 1))) = ix1 (0 : Fin 1) := by
  funext a; match a with | ⟨0, _⟩ => rfl

/-- A joined row against a 64 × 32 matrix: the 64-term product over the joined axis, read at row r and column j. -/
theorem sum_cat_read (A B : (⟨S100000x32, .f32⟩ : BufTy).Contents (Elt Ideal)) (W : (⟨S64x32, .f32⟩ : BufTy).Contents (Elt Ideal))
    (r : Fin 100000) (j : Fin 32) :
    (∑ k : Fin 64, concatenate S100000x64 1 [⟨S100000x32, A⟩, ⟨S100000x32, B⟩]
        concatenates_S100000x32_S100000x32_S100000x64_d1 (ix2 r k) * W (ix2 k j))
      = ∑ k : Fin 64, cat (fun q => A (ix2 r q)) (fun q => B (ix2 r q)) k * W (ix2 k j) :=
  Finset.sum_congr rfl fun k _ => by rw [cat_read]

/-- The update gate of the reference at row r, column j. -/
theorem ref_z (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x4 : (⟨S256x32, .f32⟩ : BufTy).Contents (Elt Ideal)) (x5 : (⟨S32, .f32⟩ : BufTy).Contents (Elt Ideal)) (x10 : (⟨S64x32, .f32⟩ : BufTy).Contents (Elt Ideal)) (x11 : (⟨S32, .f32⟩ : BufTy).Contents (Elt Ideal)) (r : Fin 100000) (j : Fin 32) :
    val_main_v58 (F := Ideal) x0 x1 x2 x3 x4 x5 x10 x11 (ix2 r j)
      = gate (fun k => val_main_v47 (F := Ideal) x0 x1 x2 x4 x5 (ix2 r k)) (fun k => x3 (ix2 r k))
          (fun k j => x10 (ix2 k j)) (fun j => x11 (ix1 j)) j := by
  rw [val_main_v58_apply, val_main_v57_apply, val_main_cst_8_apply, val_main_v56_apply, val_main_v55_apply,
    val_main_cst_7_apply, val_main_v54_apply, val_main_v53_apply, val_main_v52_apply, val_main_v51_apply,
    val_main_v50_apply, bidx51, val_main_v49_apply]
  unfold val_main_v48
  simp only [lidx49, ridx49]
  rw [sum_cat_read]
  simp only [Ideal.hostDivf_def, Ideal.addf_def, Ideal.hostUnary_exp_def, Ideal.hostNegf_def, Ideal.negf_def,
    Ideal.ofBits_def, word_one]
  rfl

/-- The reset gate of the reference at row r, column j. -/
theorem ref_r (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x6 : (⟨S256x32, .f32⟩ : BufTy).Contents (Elt Ideal)) (x7 : (⟨S32, .f32⟩ : BufTy).Contents (Elt Ideal)) (x12 : (⟨S64x32, .f32⟩ : BufTy).Contents (Elt Ideal)) (x13 : (⟨S32, .f32⟩ : BufTy).Contents (Elt Ideal)) (r : Fin 100000) (j : Fin 32) :
    val_main_v113 (F := Ideal) x0 x1 x2 x3 x6 x7 x12 x13 (ix2 r j)
      = gate (fun k => val_main_v102 (F := Ideal) x0 x1 x2 x6 x7 (ix2 r k)) (fun k => x3 (ix2 r k))
          (fun k j => x12 (ix2 k j)) (fun j => x13 (ix1 j)) j := by
  rw [val_main_v113_apply, val_main_v112_apply, val_main_cst_19_apply, val_main_v111_apply, val_main_v110_apply,
    val_main_cst_18_apply, val_main_v109_apply, val_main_v108_apply, val_main_v107_apply, val_main_v106_apply,
    val_main_v105_apply, bidx106, val_main_v104_apply]
  unfold val_main_v103
  simp only [lidx104, ridx104]
  rw [sum_cat_read]
  simp only [Ideal.hostDivf_def, Ideal.addf_def, Ideal.hostUnary_exp_def, Ideal.hostNegf_def, Ideal.negf_def,
    Ideal.ofBits_def, word_one]
  rfl

/-- The previous hidden state times the reset gate, one row of the reference. -/
theorem ref_hr (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x6 : (⟨S256x32, .f32⟩ : BufTy).Contents (Elt Ideal)) (x7 : (⟨S32, .f32⟩ : BufTy).Contents (Elt Ideal)) (x12 : (⟨S64x32, .f32⟩ : BufTy).Contents (Elt Ideal)) (x13 : (⟨S32, .f32⟩ : BufTy).Contents (Elt Ideal)) (r : Fin 100000) :
    (fun q : Fin 32 => val_main_v158 (F := Ideal) x0 x1 x2 x3 x6 x7 x12 x13 (ix2 r q))
      = fun q => x3 (ix2 r q) * gate (fun k => val_main_v102 (F := Ideal) x0 x1 x2 x6 x7 (ix2 r k)) (fun k => x3 (ix2 r k))
          (fun k j => x12 (ix2 k j)) (fun j => x13 (ix1 j)) q :=
  funext fun q => by rw [val_main_v158_apply, ref_r, Ideal.mulf_def]

/-- The candidate state of the reference at row r, column j. -/
theorem ref_c (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x6 : (⟨S256x32, .f32⟩ : BufTy).Contents (Elt Ideal)) (x7 : (⟨S32, .f32⟩ : BufTy).Contents (Elt Ideal)) (x8 : (⟨S256x32, .f32⟩ : BufTy).Contents (Elt Ideal)) (x9 : (⟨S32, .f32⟩ : BufTy).Contents (Elt Ideal)) (x12 : (⟨S64x32, .f32⟩ : BufTy).Contents (Elt Ideal)) (x13 : (⟨S32, .f32⟩ : BufTy).Contents (Elt Ideal)) (x14 : (⟨S64x32, .f32⟩ : BufTy).Contents (Elt Ideal)) (x15 : (⟨S32, .f32⟩ : BufTy).Contents (Elt Ideal)) (r : Fin 100000) (j : Fin 32) :
    val_main_v164 (F := Ideal) x0 x1 x2 x3 x6 x7 x8 x9 x12 x13 x14 x15 (ix2 r j)
      = cand (fun k => val_main_v157 (F := Ideal) x0 x1 x2 x8 x9 (ix2 r k)) (fun k => x3 (ix2 r k))
          (gate (fun k => val_main_v102 (F := Ideal) x0 x1 x2 x6 x7 (ix2 r k)) (fun k => x3 (ix2 r k))
            (fun k j => x12 (ix2 k j)) (fun j => x13 (ix1 j)))
          (fun k j => x14 (ix2 k j)) (fun j => x15 (ix1 j)) j := by
  rw [val_main_v164_apply, val_main_v163_apply, val_main_v162_apply, val_main_v161_apply, bidx162, val_main_v160_apply]
  unfold val_main_v159
  simp only [lidx160, ridx160]
  rw [sum_cat_read, ref_hr]
  simp only [Ideal.addf_def, Ideal.hostUnary_tanh_def]
  rfl

/-- The new hidden state of the reference at row r, column j. -/
theorem ref_h (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x4 : (⟨S256x32, .f32⟩ : BufTy).Contents (Elt Ideal)) (x5 : (⟨S32, .f32⟩ : BufTy).Contents (Elt Ideal)) (x6 : (⟨S256x32, .f32⟩ : BufTy).Contents (Elt Ideal)) (x7 : (⟨S32, .f32⟩ : BufTy).Contents (Elt Ideal)) (x8 : (⟨S256x32, .f32⟩ : BufTy).Contents (Elt Ideal)) (x9 : (⟨S32, .f32⟩ : BufTy).Contents (Elt Ideal)) (x10 : (⟨S64x32, .f32⟩ : BufTy).Contents (Elt Ideal)) (x11 : (⟨S32, .f32⟩ : BufTy).Contents (Elt Ideal)) (x12 : (⟨S64x32, .f32⟩ : BufTy).Contents (Elt Ideal)) (x13 : (⟨S32, .f32⟩ : BufTy).Contents (Elt Ideal)) (x14 : (⟨S64x32, .f32⟩ : BufTy).Contents (Elt Ideal)) (x15 : (⟨S32, .f32⟩ : BufTy).Contents (Elt Ideal)) (r : Fin 100000) (j : Fin 32) :
    val_main_v169 (F := Ideal) x0 x1 x2 x3 x4 x5 x6 x7 x8 x9 x10 x11 x12 x13 x14 x15 (ix2 r j)
      = hRow (fun k => val_main_v47 (F := Ideal) x0 x1 x2 x4 x5 (ix2 r k))
          (fun k => val_main_v102 (F := Ideal) x0 x1 x2 x6 x7 (ix2 r k))
          (fun k => val_main_v157 (F := Ideal) x0 x1 x2 x8 x9 (ix2 r k)) (fun k => x3 (ix2 r k))
          (fun k j => x10 (ix2 k j)) (fun j => x11 (ix1 j)) (fun k j => x12 (ix2 k j)) (fun j => x13 (ix1 j))
          (fun k j => x14 (ix2 k j)) (fun j => x15 (ix1 j)) j := by
  rw [val_main_v169_apply, val_main_v165_apply, val_main_v168_apply, val_main_v167_apply, val_main_v166_apply,
    val_main_cst_29_apply, ref_z, ref_c]
  simp only [Ideal.addf_def, Ideal.mulf_def, Ideal.subf_def, Ideal.ofBits_def, word_one]
  rfl

/-- The positive part of the new hidden state of the reference at row r, column k. -/
theorem ref_relu (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x4 : (⟨S256x32, .f32⟩ : BufTy).Contents (Elt Ideal)) (x5 : (⟨S32, .f32⟩ : BufTy).Contents (Elt Ideal)) (x6 : (⟨S256x32, .f32⟩ : BufTy).Contents (Elt Ideal)) (x7 : (⟨S32, .f32⟩ : BufTy).Contents (Elt Ideal)) (x8 : (⟨S256x32, .f32⟩ : BufTy).Contents (Elt Ideal)) (x9 : (⟨S32, .f32⟩ : BufTy).Contents (Elt Ideal)) (x10 : (⟨S64x32, .f32⟩ : BufTy).Contents (Elt Ideal)) (x11 : (⟨S32, .f32⟩ : BufTy).Contents (Elt Ideal)) (x12 : (⟨S64x32, .f32⟩ : BufTy).Contents (Elt Ideal)) (x13 : (⟨S32, .f32⟩ : BufTy).Contents (Elt Ideal)) (x14 : (⟨S64x32, .f32⟩ : BufTy).Contents (Elt Ideal)) (x15 : (⟨S32, .f32⟩ : BufTy).Contents (Elt Ideal)) (r : Fin 100000) (k : Fin 32) :
    val_main_v170 (F := Ideal) x0 x1 x2 x3 x4 x5 x6 x7 x8 x9 x10 x11 x12 x13 x14 x15 (ix2 r k)
      = max (hRow (fun k => val_main_v47 (F := Ideal) x0 x1 x2 x4 x5 (ix2 r k))
          (fun k => val_main_v102 (F := Ideal) x0 x1 x2 x6 x7 (ix2 r k))
          (fun k => val_main_v157 (F := Ideal) x0 x1 x2 x8 x9 (ix2 r k)) (fun k => x3 (ix2 r k))
          (fun k j => x10 (ix2 k j)) (fun j => x11 (ix1 j)) (fun k j => x12 (ix2 k j)) (fun j => x13 (ix1 j))
          (fun k j => x14 (ix2 k j)) (fun j => x15 (ix1 j)) k) 0 := by
  rw [val_main_v170_apply, val_main_call0_v0_apply, val_main_call0_cst_apply, ref_h, Ideal.maximumf_def,
    Ideal.ofBits_def, word_zero]

/-- The scalar read-out of the reference at row r. -/
theorem ref_y (x0 : (⟨S100000x256, .f32⟩ : BufTy).Contents (Elt Ideal)) (x1 : (⟨S2x3200000, .i32⟩ : BufTy).Contents (Elt Ideal)) (x2 : (⟨S3200000, .f32⟩ : BufTy).Contents (Elt Ideal)) (x3 : (⟨S100000x32, .f32⟩ : BufTy).Contents (Elt Ideal)) (x4 : (⟨S256x32, .f32⟩ : BufTy).Contents (Elt Ideal)) (x5 : (⟨S32, .f32⟩ : BufTy).Contents (Elt Ideal)) (x6 : (⟨S256x32, .f32⟩ : BufTy).Contents (Elt Ideal)) (x7 : (⟨S32, .f32⟩ : BufTy).Contents (Elt Ideal)) (x8 : (⟨S256x32, .f32⟩ : BufTy).Contents (Elt Ideal)) (x9 : (⟨S32, .f32⟩ : BufTy).Contents (Elt Ideal)) (x10 : (⟨S64x32, .f32⟩ : BufTy).Contents (Elt Ideal)) (x11 : (⟨S32, .f32⟩ : BufTy).Contents (Elt Ideal)) (x12 : (⟨S64x32, .f32⟩ : BufTy).Contents (Elt Ideal)) (x13 : (⟨S32, .f32⟩ : BufTy).Contents (Elt Ideal)) (x14 : (⟨S64x32, .f32⟩ : BufTy).Contents (Elt Ideal)) (x15 : (⟨S32, .f32⟩ : BufTy).Contents (Elt Ideal)) (x16 : (⟨S32x1, .f32⟩ : BufTy).Contents (Elt Ideal)) (x17 : (⟨S1, .f32⟩ : BufTy).Contents (Elt Ideal)) (r : Fin 100000) :
    val_main_v174 (F := Ideal) x0 x1 x2 x3 x4 x5 x6 x7 x8 x9 x10 x11 x12 x13 x14 x15 x16 x17 (ix2 r 0)
      = yRow (fun k => val_main_v47 (F := Ideal) x0 x1 x2 x4 x5 (ix2 r k))
          (fun k => val_main_v102 (F := Ideal) x0 x1 x2 x6 x7 (ix2 r k))
          (fun k => val_main_v157 (F := Ideal) x0 x1 x2 x8 x9 (ix2 r k)) (fun k => x3 (ix2 r k))
          (fun k j => x10 (ix2 k j)) (fun j => x11 (ix1 j)) (fun k j => x12 (ix2 k j)) (fun j => x13 (ix1 j))
          (fun k j => x14 (ix2 k j)) (fun j => x15 (ix1 j)) (fun j => x16 (ix2 j 0)) (x17 (ix1 0)) := by
  rw [val_main_v174_apply, val_main_v173_apply, val_main_v172_apply, bidx173, val_main_v171_apply, Ideal.addf_def]
  unfold yRow
  refine congrArg (fun s => s + x17 (ix1 (0 : Fin 1))) (Finset.sum_congr rfl fun k _ => ?_)
  rw [lidx171, ridx171, ref_relu]

end Cert.RefHead

end
-- ==== Proof.Results.lean ====
/-
  The idealized kernel's two results are the reference's two final stages of the same arguments.

  At the end the read-out and the new hidden state are what the second call's write-backs leave: node by node (row by row) the
  recurrent cell and head of the rows the call found.  Those rows are the reference's three graph-convolution stages, the
  previous hidden state, the gate matrices, and the biases read from their reshaped rows; and the reference's own last stages,
  read at a node, are the same cell and head of the same rows.
-/
import proofs.«114561_j77266461655170_1_alg».proof.Proof.Bridge
import proofs.«114561_j77266461655170_1_alg».proof.Proof.RefHead

set_option maxRecDepth 16384

noncomputable section

namespace Cert.Bridge

open Cert.KernelIdeal Cert.KernelIdeal.Gen Cert.KernelIdeal.Body Cert.KernelIdeal.Blocks
open Idealize.ShloMosaic Idealize.ShloMosaic.TcCoe Idealize.SL.Sem Idealize.ShloMosaic.StableHlo
open Idealize.ShloMosaic.ValueIdx Cert.GruSpec
open Cert.ReferenceIdeal.Read (val_main_v47 val_main_v102 val_main_v157 val_main_v169 val_main_v174)

variable (m : (ℓ : Loc nD τ sig) → Buf (Elt Ideal) ℓ) (ρ : Dev nD → PrngReg) (c : Dev nD)

/-- The new hidden state. -/
theorem res_h : W4 m ρ c (Proc.devRef .tc main_v96_1) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 13).trans ((arr1_h (V3 m ρ) c).trans ?_)
  rw [show V3 m ρ c main_v51 = _ from gate_z m ρ c, show V3 m ρ c main_v71 = _ from gate_r m ρ c,
    show V3 m ρ c main_v91 = _ from gate_h m ρ c, show V3 m ρ c main_arg3 = _ from W3_main_arg3 m ρ c,
    show V3 m ρ c main_arg10 = _ from W3_main_arg10 m ρ c, show V3 m ρ c main_v92 = _ from W3_v92 m ρ c,
    show V3 m ρ c main_arg12 = _ from W3_main_arg12 m ρ c, show V3 m ρ c main_v93 = _ from W3_v93 m ρ c,
    show V3 m ρ c main_arg14 = _ from W3_main_arg14 m ρ c, show V3 m ρ c main_v94 = _ from W3_v94 m ρ c]
  funext i
  obtain ⟨r, j, rfl⟩ : ∃ (r : Fin 100000) (j : Fin 32), i = ix2 r j := ⟨i 0, i 1, eq_ix2 i⟩
  rw [Cert.RefHead.ref_h]
  refine (hArr_at _ _ _ _ _ _ _ _ _ _ (ix2 r j) r j rfl rfl).trans ?_
  exact hRow_congr (fun _ => rfl) (fun _ => rfl) (fun _ => rfl) (fun _ => rfl)
    (fun _ _ => rfl) (fun j => Cert.SliceProd.bias_row _ j) (fun _ _ => rfl) (fun j => Cert.SliceProd.bias_row _ j)
    (fun _ _ => rfl) (fun j => Cert.SliceProd.bias_row _ j) j

/-- The read-out. -/
theorem res_y : W4 m ρ c (Proc.devRef .tc main_v96_0) = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W4_arr m ρ c 12).trans ((arr1_y (V3 m ρ) c).trans ?_)
  rw [show V3 m ρ c main_v51 = _ from gate_z m ρ c, show V3 m ρ c main_v71 = _ from gate_r m ρ c,
    show V3 m ρ c main_v91 = _ from gate_h m ρ c, show V3 m ρ c main_arg3 = _ from W3_main_arg3 m ρ c,
    show V3 m ρ c main_arg10 = _ from W3_main_arg10 m ρ c, show V3 m ρ c main_v92 = _ from W3_v92 m ρ c,
    show V3 m ρ c main_arg12 = _ from W3_main_arg12 m ρ c, show V3 m ρ c main_v93 = _ from W3_v93 m ρ c,
    show V3 m ρ c main_arg14 = _ from W3_main_arg14 m ρ c, show V3 m ρ c main_v94 = _ from W3_v94 m ρ c,
    show V3 m ρ c main_arg16 = _ from W3_main_arg16 m ρ c, show V3 m ρ c main_v95 = _ from W3_v95 m ρ c]
  funext i
  obtain ⟨r, z, rfl⟩ : ∃ (r : Fin 100000) (z : Fin 1), i = ix2 r z := ⟨i 0, i 1, eq_ix2 i⟩
  obtain rfl : z = 0 := Subsingleton.elim _ _
  rw [Cert.RefHead.ref_y]
  refine (yArr_at _ _ _ _ _ _ _ _ _ _ _ _ (ix2 r 0) r rfl).trans ?_
  exact yRow_congr (fun _ => rfl) (fun _ => rfl) (fun _ => rfl) (fun _ => rfl)
    (fun _ _ => rfl) (fun j => Cert.SliceProd.bias_row _ j) (fun _ _ => rfl) (fun j => Cert.SliceProd.bias_row _ j)
    (fun _ _ => rfl) (fun j => Cert.SliceProd.bias_row _ j) (fun _ => rfl) (Cert.SliceProd.bias_one _)

end Cert.Bridge

end
-- ==== Proof.lean ====
/-
  A recurrent graph-convolution cell (three graph convolutions feeding the update gate, the reset gate and the candidate state of
  a gated recurrent unit, then a positive-part-and-linear read-out) over 100000 nodes and 3200000 weighted edges, written with two
  pipelined calls — the row-tiled product x · [W_z | W_r | W_h], and the cell with its head on 2000 nodes at a time — around host
  operations for the edge sums, against the same network written with array operations only.

  Frames.  Each pipelined call's body loads its blocks whole and stores each output block whole, once; the two calls and the two
  stretches of host operations compose into a run from any launch memory in which nothing faults, and no operation or call writes
  an argument.  The reference has no call: its run is the composition of its operations.
  Idealization.  The kernel's idealized text is its own text read on the extended reals: nothing was rewritten.
  Values, on the extended reals.  Column block g of x · [W_z | W_r | W_h] is x · W_g (a sum over the contracted axis, term by term);
  the host operations between the calls are the reference's own chain applied to that product, so each gate's graph convolution
  is the reference's; the second call computes, node by node, the cell and head of those rows, which is what the reference's last
  operations compute at that node (the logistic function written out as 1 / (1 + e^(−x)) is the logistic function; a change of
  float format is the identity; a bias reshaped to a row is read at its entry).  No law used needs finiteness.
-/
import proofs.«114561_j77266461655170_1_alg».proof.Defs
import proofs.«114561_j77266461655170_1_alg».proof.Proof.Gen.Kernel
import proofs.«114561_j77266461655170_1_alg».proof.Proof.Gen.Kernel.Skeleton
import proofs.«114561_j77266461655170_1_alg».proof.Proof.Gen.Kernel.Launch
import proofs.«114561_j77266461655170_1_alg».proof.Proof.Gen.Kernel.Regions
import proofs.«114561_j77266461655170_1_alg».proof.Proof.Gen.Kernel.Points
import proofs.«114561_j77266461655170_1_alg».proof.Proof.Gen.KernelIdeal
import proofs.«114561_j77266461655170_1_alg».proof.Proof.Gen.KernelIdeal.Skeleton
import proofs.«114561_j77266461655170_1_alg».proof.Proof.Gen.KernelIdeal.Launch
import proofs.«114561_j77266461655170_1_alg».proof.Proof.Gen.KernelIdeal.Regions
import proofs.«114561_j77266461655170_1_alg».proof.Proof.Gen.KernelIdeal.Points
import proofs.«114561_j77266461655170_1_alg».proof.Proof.Gen.ReferenceIdeal
import proofs.«114561_j77266461655170_1_alg».proof.Proof.Gen.Pre_finite_inputs
import proofs.«114561_j77266461655170_1_alg».proof.Proof.Gen.ReferenceIdeal.Run
import proofs.«114561_j77266461655170_1_alg».proof.Proof.Gen.ReferenceIdeal.Read
import proofs.«114561_j77266461655170_1_alg».proof.Proof.Kernel.Run
import proofs.«114561_j77266461655170_1_alg».proof.Proof.KernelIdeal.Run
import proofs.«114561_j77266461655170_1_alg».proof.Proof.Results
import Idealize.ShloMosaic.Adequacy
import Idealize.ShloMosaic.Init

set_option maxRecDepth 16384

noncomputable section

namespace Cert.Proof

open Idealize.ShloMosaic Idealize.SL.Sem

/-- The word-level kernel runs, and its arguments end as launched. -/
theorem frame_k : Cert.frame_Kernel := fun m ρ _ =>
  (θ_run Cert.Kernel.defs _ _).mono (fun r h c =>
    ⟨(h c Cert.Kernel.main_arg0 (by decide)).trans (Cert.Kernel.Body.W4_main_arg0 m ρ c),
      (h c Cert.Kernel.main_arg1 (by decide)).trans (Cert.Kernel.Body.W4_main_arg1 m ρ c),
      (h c Cert.Kernel.main_arg2 (by decide)).trans (Cert.Kernel.Body.W4_main_arg2 m ρ c),
      (h c Cert.Kernel.main_arg3 (by decide)).trans (Cert.Kernel.Body.W4_main_arg3 m ρ c),
      (h c Cert.Kernel.main_arg4 (by decide)).trans (Cert.Kernel.Body.W4_main_arg4 m ρ c),
      (h c Cert.Kernel.main_arg5 (by decide)).trans (Cert.Kernel.Body.W4_main_arg5 m ρ c),
      (h c Cert.Kernel.main_arg6 (by decide)).trans (Cert.Kernel.Body.W4_main_arg6 m ρ c),
      (h c Cert.Kernel.main_arg7 (by decide)).trans (Cert.Kernel.Body.W4_main_arg7 m ρ c),
      (h c Cert.Kernel.main_arg8 (by decide)).trans (Cert.Kernel.Body.W4_main_arg8 m ρ c),
      (h c Cert.Kernel.main_arg9 (by decide)).trans (Cert.Kernel.Body.W4_main_arg9 m ρ c),
      (h c Cert.Kernel.main_arg10 (by decide)).trans (Cert.Kernel.Body.W4_main_arg10 m ρ c),
      (h c Cert.Kernel.main_arg11 (by decide)).trans (Cert.Kernel.Body.W4_main_arg11 m ρ c),
      (h c Cert.Kernel.main_arg12 (by decide)).trans (Cert.Kernel.Body.W4_main_arg12 m ρ c),
      (h c Cert.Kernel.main_arg13 (by decide)).trans (Cert.Kernel.Body.W4_main_arg13 m ρ c),
      (h c Cert.Kernel.main_arg14 (by decide)).trans (Cert.Kernel.Body.W4_main_arg14 m ρ c),
      (h c Cert.Kernel.main_arg15 (by decide)).trans (Cert.Kernel.Body.W4_main_arg15 m ρ c),
      (h c Cert.Kernel.main_arg16 (by decide)).trans (Cert.Kernel.Body.W4_main_arg16 m ρ c),
      (h c Cert.Kernel.main_arg17 (by decide)).trans (Cert.Kernel.Body.W4_main_arg17 m ρ c)⟩)
    (Cert.Kernel.Body.run_at (F := Bits) m ρ)

/-- The idealized kernel runs, and its arguments end as launched. -/
theorem frame_ki : Cert.frame_KernelIdeal := fun m ρ _ =>
  (θ_run Cert.KernelIdeal.defs _ _).mono (fun r h c =>
    ⟨(h c Cert.KernelIdeal.main_arg0 (by decide)).trans (Cert.KernelIdeal.Body.W4_main_arg0 m ρ c),
      (h c Cert.KernelIdeal.main_arg1 (by decide)).trans (Cert.KernelIdeal.Body.W4_main_arg1 m ρ c),
      (h c Cert.KernelIdeal.main_arg2 (by decide)).trans (Cert.KernelIdeal.Body.W4_main_arg2 m ρ c),
      (h c Cert.KernelIdeal.main_arg3 (by decide)).trans (Cert.KernelIdeal.Body.W4_main_arg3 m ρ c),
      (h c Cert.KernelIdeal.main_arg4 (by decide)).trans (Cert.KernelIdeal.Body.W4_main_arg4 m ρ c),
      (h c Cert.KernelIdeal.main_arg5 (by decide)).trans (Cert.KernelIdeal.Body.W4_main_arg5 m ρ c),
      (h c Cert.KernelIdeal.main_arg6 (by decide)).trans (Cert.KernelIdeal.Body.W4_main_arg6 m ρ c),
      (h c Cert.KernelIdeal.main_arg7 (by decide)).trans (Cert.KernelIdeal.Body.W4_main_arg7 m ρ c),
      (h c Cert.KernelIdeal.main_arg8 (by decide)).trans (Cert.KernelIdeal.Body.W4_main_arg8 m ρ c),
      (h c Cert.KernelIdeal.main_arg9 (by decide)).trans (Cert.KernelIdeal.Body.W4_main_arg9 m ρ c),
      (h c Cert.KernelIdeal.main_arg10 (by decide)).trans (Cert.KernelIdeal.Body.W4_main_arg10 m ρ c),
      (h c Cert.KernelIdeal.main_arg11 (by decide)).trans (Cert.KernelIdeal.Body.W4_main_arg11 m ρ c),
      (h c Cert.KernelIdeal.main_arg12 (by decide)).trans (Cert.KernelIdeal.Body.W4_main_arg12 m ρ c),
      (h c Cert.KernelIdeal.main_arg13 (by decide)).trans (Cert.KernelIdeal.Body.W4_main_arg13 m ρ c),
      (h c Cert.KernelIdeal.main_arg14 (by decide)).trans (Cert.KernelIdeal.Body.W4_main_arg14 m ρ c),
      (h c Cert.KernelIdeal.main_arg15 (by decide)).trans (Cert.KernelIdeal.Body.W4_main_arg15 m ρ c),
      (h c Cert.KernelIdeal.main_arg16 (by decide)).trans (Cert.KernelIdeal.Body.W4_main_arg16 m ρ c),
      (h c Cert.KernelIdeal.main_arg17 (by decide)).trans (Cert.KernelIdeal.Body.W4_main_arg17 m ρ c)⟩)
    (Cert.KernelIdeal.Body.run_at (F := Ideal) m ρ)

/-- The reference runs, and its arguments end as launched. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- From memories agreeing on the arguments both programs end with the reference's two final stages of those arguments. -/
theorem algebraic : Cert.algebraic_KernelIdeal_ReferenceIdeal := by
  intro m ρ m' ρ' _ hagree
  refine ⟨fun c => Cert.ReferenceIdeal.Read.val_main_v174 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v169 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c =>
      ⟨(h c Cert.KernelIdeal.main_v96_0 (by decide)).trans (Cert.Bridge.res_y m ρ c),
      (h c Cert.KernelIdeal.main_v96_1 (by decide)).trans (Cert.Bridge.res_h m ρ c),
      (h c Cert.KernelIdeal.main_arg0 (by decide)).trans (Cert.KernelIdeal.Body.W4_main_arg0 m ρ c),
      (h c Cert.KernelIdeal.main_arg1 (by decide)).trans (Cert.KernelIdeal.Body.W4_main_arg1 m ρ c),
      (h c Cert.KernelIdeal.main_arg2 (by decide)).trans (Cert.KernelIdeal.Body.W4_main_arg2 m ρ c),
      (h c Cert.KernelIdeal.main_arg3 (by decide)).trans (Cert.KernelIdeal.Body.W4_main_arg3 m ρ c),
      (h c Cert.KernelIdeal.main_arg4 (by decide)).trans (Cert.KernelIdeal.Body.W4_main_arg4 m ρ c),
      (h c Cert.KernelIdeal.main_arg5 (by decide)).trans (Cert.KernelIdeal.Body.W4_main_arg5 m ρ c),
      (h c Cert.KernelIdeal.main_arg6 (by decide)).trans (Cert.KernelIdeal.Body.W4_main_arg6 m ρ c),
      (h c Cert.KernelIdeal.main_arg7 (by decide)).trans (Cert.KernelIdeal.Body.W4_main_arg7 m ρ c),
      (h c Cert.KernelIdeal.main_arg8 (by decide)).trans (Cert.KernelIdeal.Body.W4_main_arg8 m ρ c),
      (h c Cert.KernelIdeal.main_arg9 (by decide)).trans (Cert.KernelIdeal.Body.W4_main_arg9 m ρ c),
      (h c Cert.KernelIdeal.main_arg10 (by decide)).trans (Cert.KernelIdeal.Body.W4_main_arg10 m ρ c),
      (h c Cert.KernelIdeal.main_arg11 (by decide)).trans (Cert.KernelIdeal.Body.W4_main_arg11 m ρ c),
      (h c Cert.KernelIdeal.main_arg12 (by decide)).trans (Cert.KernelIdeal.Body.W4_main_arg12 m ρ c),
      (h c Cert.KernelIdeal.main_arg13 (by decide)).trans (Cert.KernelIdeal.Body.W4_main_arg13 m ρ c),
      (h c Cert.KernelIdeal.main_arg14 (by decide)).trans (Cert.KernelIdeal.Body.W4_main_arg14 m ρ c),
      (h c Cert.KernelIdeal.main_arg15 (by decide)).trans (Cert.KernelIdeal.Body.W4_main_arg15 m ρ c),
      (h c Cert.KernelIdeal.main_arg16 (by decide)).trans (Cert.KernelIdeal.Body.W4_main_arg16 m ρ c),
      (h c Cert.KernelIdeal.main_arg17 (by decide)).trans (Cert.KernelIdeal.Body.W4_main_arg17 m ρ c)⟩)
      (Cert.KernelIdeal.Body.run_at (F := Ideal) m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8, e9, e10, e11, e12, e13, e14, e15, e16, e17⟩ := hagree c
      rw [(h c).1, Cert.ReferenceIdeal.Read.val_main_v174_eq, e0, e1, e2, e3, e4, e5, e6, e7, e8, e9, e10, e11, e12, e13, e14, e15, e16, e17]
    · obtain ⟨e0, e1, e2, e3, e4, e5, e6, e7, e8, e9, e10, e11, e12, e13, e14, e15, e16, e17⟩ := hagree c
      rw [(h c).2.1, Cert.ReferenceIdeal.Read.val_main_v169_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
